-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x160x160x160 : Shape := ⟨5, ![8, 1, 160, 160, 160]⟩
abbrev S3 : Shape := ⟨1, ![3]⟩
abbrev S_ : Shape := ⟨0, ![]⟩

class Facts : Prop where
  bcast_S_S8x1x160x160x160 : S_.BroadcastsInDim S8x1x160x160x160 (![] : Fin 0 → Fin S8x1x160x160x160.rank)
  reducesTo_S8x1x160x160x160_S_d0_1_2_3_4 : S8x1x160x160x160.ReducesTo [0, 1, 2, 3, 4] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S8x1x160x160x160 .f32) (main_arg1 : FVec F S3 .f32) : IVec S_ 1 :=
  let main_v0 : FVec F S8x1x160x160x160 .f32 := Host.absf main_arg0
  let main_cst : FVec F S_ .f32 := constant S_ .f32 0x7F800000#32
  let main_v1 : FVec F S8x1x160x160x160 .f32 := broadcastInDim S8x1x160x160x160 ![] bcast_S_S8x1x160x160x160 main_cst
  let main_v2 : IVec S8x1x160x160x160 1 := cmpf .olt main_v0 main_v1
  let main_c : IVec S_ 1 := constantI S_ 1 1#1
  let main_v3 : IVec S_ 1 := (fun x v => Host.reduce IntOp.andi x v reducesTo_S8x1x160x160x160_S_d0_1_2_3_4 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  main_v8
-- ==== Kernel.lean ====
abbrev S8x1x160x160x160 : Shape := ⟨5, ![8, 1, 160, 160, 160]⟩
abbrev S3 : Shape := ⟨1, ![3]⟩
abbrev S8x3x160 : Shape := ⟨3, ![8, 3, 160]⟩
abbrev S1x1x160x160x160 : Shape := ⟨5, ![1, 1, 160, 160, 160]⟩
abbrev S1x3x160 : Shape := ⟨3, ![1, 3, 160]⟩
abbrev S1x1x17x160x160 : Shape := ⟨5, ![1, 1, 17, 160, 160]⟩
abbrev S17x160x160 : Shape := ⟨3, ![17, 160, 160]⟩
abbrev S16x160x160 : Shape := ⟨3, ![16, 160, 160]⟩
abbrev S16x160 : Shape := ⟨2, ![16, 160]⟩
abbrev S16 : Shape := ⟨1, ![16]⟩
abbrev S1x1x16 : Shape := ⟨3, ![1, 1, 16]⟩
abbrev S1x1x16x160x160 : Shape := ⟨5, ![1, 1, 16, 160, 160]⟩
abbrev S15x160x160 : Shape := ⟨3, ![15, 160, 160]⟩
abbrev S15x160 : Shape := ⟨2, ![15, 160]⟩
abbrev S15 : Shape := ⟨1, ![15]⟩
abbrev S1x1x15 : Shape := ⟨3, ![1, 1, 15]⟩
abbrev S1x1x160x17x160 : Shape := ⟨5, ![1, 1, 160, 17, 160]⟩
abbrev S160x17x160 : Shape := ⟨3, ![160, 17, 160]⟩
abbrev S160x16x160 : Shape := ⟨3, ![160, 16, 160]⟩
abbrev S1x1x160x16x160 : Shape := ⟨5, ![1, 1, 160, 16, 160]⟩
abbrev S160x15x160 : Shape := ⟨3, ![160, 15, 160]⟩
abbrev S1x1x160x160x17 : Shape := ⟨5, ![1, 1, 160, 160, 17]⟩
abbrev S160x160x17 : Shape := ⟨3, ![160, 160, 17]⟩
abbrev S160x160x16 : Shape := ⟨3, ![160, 160, 16]⟩
abbrev S160x16 : Shape := ⟨2, ![160, 16]⟩
abbrev S1x1x160x160x16 : Shape := ⟨5, ![1, 1, 160, 160, 16]⟩
abbrev S160x160x15 : Shape := ⟨3, ![160, 160, 15]⟩
abbrev S160x15 : Shape := ⟨2, ![160, 15]⟩
abbrev S3x1 : Shape := ⟨2, ![3, 1]⟩
abbrev S1x3x1 : Shape := ⟨3, ![1, 3, 1]⟩
abbrev S8x3x159 : Shape := ⟨3, ![8, 3, 159]⟩
abbrev S_ : Shape := ⟨0, ![]⟩

abbrev nBuf : Space → Nat
  | .hbm => 24
  | .vmem => 3
  | .smem => 0
  | _ => 0

abbrev bufTy : (tb : Table) → Fin (tcTables nBuf tb) → BufTy
  | .hbm, ⟨0, _⟩ => ⟨S8x1x160x160x160, .f32⟩
  | .hbm, ⟨1, _⟩ => ⟨S3, .f32⟩
  | .hbm, ⟨2, _⟩ => ⟨S8x3x160, .f32⟩
  | .hbm, ⟨3, _⟩ => ⟨S8x3x159, .f32⟩
  | .hbm, ⟨4, _⟩ => ⟨S3, .f32⟩
  | .hbm, ⟨5, _⟩ => ⟨S_, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S1x3x1, .f32⟩
  | .hbm, ⟨10, _⟩ => ⟨S8x3x159, .f32⟩
  | .hbm, ⟨11, _⟩ => ⟨S8x3x159, .f32⟩
  | .hbm, ⟨12, _⟩ => ⟨S8x3x159, .f32⟩
  | .hbm, ⟨13, _⟩ => ⟨S8x3x159, .f32⟩
  | .hbm, ⟨14, _⟩ => ⟨S_, .f32⟩
  | .hbm, ⟨15, _⟩ => ⟨S3, .f32⟩
  | .hbm, ⟨16, _⟩ => ⟨S_, .f32⟩
  | .hbm, ⟨17, _⟩ => ⟨S3, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x1x160x160x160, .f32⟩
  | .local _ .vmem, ⟨1, _⟩ => ⟨S1x3x160, .f32⟩
  | .local _ .vmem, ⟨2, _⟩ => ⟨S1x3x160, .f32⟩
  | _, _ => ⟨S8x1x160x160x160, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1x160x160x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S1x3x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1x160x160x160_S1x1x17x160x160_0_0_0_0_0 : ∀ a, (![0, 0, 0, 0, 0] : Fin 5 → Nat) a + S1x1x17x160x160.size a ≤ S1x1x160x160x160.size a
  h_S1x1x17x160x160 : 0 < S1x1x17x160x160.numel
  shapeCasts_S1x1x17x160x160_S17x160x160 : S1x1x17x160x160.ShapeCasts S17x160x160
  slices_S17x160x160_o1_0_0_S16x160x160 : S17x160x160.Slices ![1, 0, 0] S16x160x160
  slices_S17x160x160_o0_0_0_S16x160x160 : S17x160x160.Slices ![0, 0, 0] S16x160x160
  reduces_S16x160x160_S16x160 : S16x160x160.Reduces [2] S16x160
  reduces_S16x160_S16 : S16x160.Reduces [1] S16
  inb_S1x3x160_S1x1x16_0_0_0 : ∀ a, (![0, 0, 0] : Fin 3 → Nat) a + S1x1x16.size a ≤ S1x3x160.size a
  h_S1x1x16 : 0 < S1x1x16.numel
  shapeCasts_S1x1x16_S16 : S1x1x16.ShapeCasts S16
  shapeCasts_S16_S1x1x16 : S16.ShapeCasts S1x1x16
  inb_S1x1x160x160x160_S1x1x17x160x160_0_0_16_0_0 : ∀ a, (![0, 0, 16, 0, 0] : Fin 5 → Nat) a + S1x1x17x160x160.size a ≤ S1x1x160x160x160.size a
  inb_S1x3x160_S1x1x16_0_0_16 : ∀ a, (![0, 0, 16] : Fin 3 → Nat) a + S1x1x16.size a ≤ S1x3x160.size a
  inb_S1x1x160x160x160_S1x1x17x160x160_0_0_32_0_0 : ∀ a, (![0, 0, 32, 0, 0] : Fin 5 → Nat) a + S1x1x17x160x160.size a ≤ S1x1x160x160x160.size a
  inb_S1x3x160_S1x1x16_0_0_32 : ∀ a, (![0, 0, 32] : Fin 3 → Nat) a + S1x1x16.size a ≤ S1x3x160.size a
  inb_S1x1x160x160x160_S1x1x17x160x160_0_0_48_0_0 : ∀ a, (![0, 0, 48, 0, 0] : Fin 5 → Nat) a + S1x1x17x160x160.size a ≤ S1x1x160x160x160.size a
  inb_S1x3x160_S1x1x16_0_0_48 : ∀ a, (![0, 0, 48] : Fin 3 → Nat) a + S1x1x16.size a ≤ S1x3x160.size a
  inb_S1x1x160x160x160_S1x1x17x160x160_0_0_64_0_0 : ∀ a, (![0, 0, 64, 0, 0] : Fin 5 → Nat) a + S1x1x17x160x160.size a ≤ S1x1x160x160x160.size a
  inb_S1x3x160_S1x1x16_0_0_64 : ∀ a, (![0, 0, 64] : Fin 3 → Nat) a + S1x1x16.size a ≤ S1x3x160.size a
  inb_S1x1x160x160x160_S1x1x17x160x160_0_0_80_0_0 : ∀ a, (![0, 0, 80, 0, 0] : Fin 5 → Nat) a + S1x1x17x160x160.size a ≤ S1x1x160x160x160.size a
  inb_S1x3x160_S1x1x16_0_0_80 : ∀ a, (![0, 0, 80] : Fin 3 → Nat) a + S1x1x16.size a ≤ S1x3x160.size a
  inb_S1x1x160x160x160_S1x1x17x160x160_0_0_96_0_0 : ∀ a, (![0, 0, 96, 0, 0] : Fin 5 → Nat) a + S1x1x17x160x160.size a ≤ S1x1x160x160x160.size a
  inb_S1x3x160_S1x1x16_0_0_96 : ∀ a, (![0, 0, 96] : Fin 3 → Nat) a + S1x1x16.size a ≤ S1x3x160.size a
  inb_S1x1x160x160x160_S1x1x17x160x160_0_0_112_0_0 : ∀ a, (![0, 0, 112, 0, 0] : Fin 5 → Nat) a + S1x1x17x160x160.size a ≤ S1x1x160x160x160.size a
  inb_S1x3x160_S1x1x16_0_0_112 : ∀ a, (![0, 0, 112] : Fin 3 → Nat) a + S1x1x16.size a ≤ S1x3x160.size a
  inb_S1x1x160x160x160_S1x1x17x160x160_0_0_128_0_0 : ∀ a, (![0, 0, 128, 0, 0] : Fin 5 → Nat) a + S1x1x17x160x160.size a ≤ S1x1x160x160x160.size a
  inb_S1x3x160_S1x1x16_0_0_128 : ∀ a, (![0, 0, 128] : Fin 3 → Nat) a + S1x1x16.size a ≤ S1x3x160.size a
  inb_S1x1x160x160x160_S1x1x16x160x160_0_0_144_0_0 : ∀ a, (![0, 0, 144, 0, 0] : Fin 5 → Nat) a + S1x1x16x160x160.size a ≤ S1x1x160x160x160.size a
  h_S1x1x16x160x160 : 0 < S1x1x16x160x160.numel
  shapeCasts_S1x1x16x160x160_S16x160x160 : S1x1x16x160x160.ShapeCasts S16x160x160
  slices_S16x160x160_o1_0_0_S15x160x160 : S16x160x160.Slices ![1, 0, 0] S15x160x160
  slices_S16x160x160_o0_0_0_S15x160x160 : S16x160x160.Slices ![0, 0, 0] S15x160x160
  reduces_S15x160x160_S15x160 : S15x160x160.Reduces [2] S15x160
  reduces_S15x160_S15 : S15x160.Reduces [1] S15
  inb_S1x3x160_S1x1x15_0_0_144 : ∀ a, (![0, 0, 144] : Fin 3 → Nat) a + S1x1x15.size a ≤ S1x3x160.size a
  h_S1x1x15 : 0 < S1x1x15.numel
  shapeCasts_S1x1x15_S15 : S1x1x15.ShapeCasts S15
  shapeCasts_S15_S1x1x15 : S15.ShapeCasts S1x1x15
  inb_S1x1x160x160x160_S1x1x160x17x160_0_0_0_0_0 : ∀ a, (![0, 0, 0, 0, 0] : Fin 5 → Nat) a + S1x1x160x17x160.size a ≤ S1x1x160x160x160.size a
  h_S1x1x160x17x160 : 0 < S1x1x160x17x160.numel
  shapeCasts_S1x1x160x17x160_S160x17x160 : S1x1x160x17x160.ShapeCasts S160x17x160
  slices_S160x17x160_o0_1_0_S160x16x160 : S160x17x160.Slices ![0, 1, 0] S160x16x160
  slices_S160x17x160_o0_0_0_S160x16x160 : S160x17x160.Slices ![0, 0, 0] S160x16x160
  reduces_S160x16x160_S16x160 : S160x16x160.Reduces [0] S16x160
  inb_S1x3x160_S1x1x16_0_1_0 : ∀ a, (![0, 1, 0] : Fin 3 → Nat) a + S1x1x16.size a ≤ S1x3x160.size a
  inb_S1x1x160x160x160_S1x1x160x17x160_0_0_0_16_0 : ∀ a, (![0, 0, 0, 16, 0] : Fin 5 → Nat) a + S1x1x160x17x160.size a ≤ S1x1x160x160x160.size a
  inb_S1x3x160_S1x1x16_0_1_16 : ∀ a, (![0, 1, 16] : Fin 3 → Nat) a + S1x1x16.size a ≤ S1x3x160.size a
  inb_S1x1x160x160x160_S1x1x160x17x160_0_0_0_32_0 : ∀ a, (![0, 0, 0, 32, 0] : Fin 5 → Nat) a + S1x1x160x17x160.size a ≤ S1x1x160x160x160.size a
  inb_S1x3x160_S1x1x16_0_1_32 : ∀ a, (![0, 1, 32] : Fin 3 → Nat) a + S1x1x16.size a ≤ S1x3x160.size a
  inb_S1x1x160x160x160_S1x1x160x17x160_0_0_0_48_0 : ∀ a, (![0, 0, 0, 48, 0] : Fin 5 → Nat) a + S1x1x160x17x160.size a ≤ S1x1x160x160x160.size a
  inb_S1x3x160_S1x1x16_0_1_48 : ∀ a, (![0, 1, 48] : Fin 3 → Nat) a + S1x1x16.size a ≤ S1x3x160.size a
  inb_S1x1x160x160x160_S1x1x160x17x160_0_0_0_64_0 : ∀ a, (![0, 0, 0, 64, 0] : Fin 5 → Nat) a + S1x1x160x17x160.size a ≤ S1x1x160x160x160.size a
  inb_S1x3x160_S1x1x16_0_1_64 : ∀ a, (![0, 1, 64] : Fin 3 → Nat) a + S1x1x16.size a ≤ S1x3x160.size a
  inb_S1x1x160x160x160_S1x1x160x17x160_0_0_0_80_0 : ∀ a, (![0, 0, 0, 80, 0] : Fin 5 → Nat) a + S1x1x160x17x160.size a ≤ S1x1x160x160x160.size a
  inb_S1x3x160_S1x1x16_0_1_80 : ∀ a, (![0, 1, 80] : Fin 3 → Nat) a + S1x1x16.size a ≤ S1x3x160.size a
  inb_S1x1x160x160x160_S1x1x160x17x160_0_0_0_96_0 : ∀ a, (![0, 0, 0, 96, 0] : Fin 5 → Nat) a + S1x1x160x17x160.size a ≤ S1x1x160x160x160.size a
  inb_S1x3x160_S1x1x16_0_1_96 : ∀ a, (![0, 1, 96] : Fin 3 → Nat) a + S1x1x16.size a ≤ S1x3x160.size a
  inb_S1x1x160x160x160_S1x1x160x17x160_0_0_0_112_0 : ∀ a, (![0, 0, 0, 112, 0] : Fin 5 → Nat) a + S1x1x160x17x160.size a ≤ S1x1x160x160x160.size a
  inb_S1x3x160_S1x1x16_0_1_112 : ∀ a, (![0, 1, 112] : Fin 3 → Nat) a + S1x1x16.size a ≤ S1x3x160.size a
  inb_S1x1x160x160x160_S1x1x160x17x160_0_0_0_128_0 : ∀ a, (![0, 0, 0, 128, 0] : Fin 5 → Nat) a + S1x1x160x17x160.size a ≤ S1x1x160x160x160.size a
  inb_S1x3x160_S1x1x16_0_1_128 : ∀ a, (![0, 1, 128] : Fin 3 → Nat) a + S1x1x16.size a ≤ S1x3x160.size a
  inb_S1x1x160x160x160_S1x1x160x16x160_0_0_0_144_0 : ∀ a, (![0, 0, 0, 144, 0] : Fin 5 → Nat) a + S1x1x160x16x160.size a ≤ S1x1x160x160x160.size a
  h_S1x1x160x16x160 : 0 < S1x1x160x16x160.numel
  shapeCasts_S1x1x160x16x160_S160x16x160 : S1x1x160x16x160.ShapeCasts S160x16x160
  slices_S160x16x160_o0_1_0_S160x15x160 : S160x16x160.Slices ![0, 1, 0] S160x15x160
  slices_S160x16x160_o0_0_0_S160x15x160 : S160x16x160.Slices ![0, 0, 0] S160x15x160
  reduces_S160x15x160_S15x160 : S160x15x160.Reduces [0] S15x160
  inb_S1x3x160_S1x1x15_0_1_144 : ∀ a, (![0, 1, 144] : Fin 3 → Nat) a + S1x1x15.size a ≤ S1x3x160.size a
  inb_S1x1x160x160x160_S1x1x160x160x17_0_0_0_0_0 : ∀ a, (![0, 0, 0, 0, 0] : Fin 5 → Nat) a + S1x1x160x160x17.size a ≤ S1x1x160x160x160.size a
  h_S1x1x160x160x17 : 0 < S1x1x160x160x17.numel
  shapeCasts_S1x1x160x160x17_S160x160x17 : S1x1x160x160x17.ShapeCasts S160x160x17
  slices_S160x160x17_o0_0_1_S160x160x16 : S160x160x17.Slices ![0, 0, 1] S160x160x16
  slices_S160x160x17_o0_0_0_S160x160x16 : S160x160x17.Slices ![0, 0, 0] S160x160x16
  reduces_S160x160x16_S160x16 : S160x160x16.Reduces [0] S160x16
  reduces_S160x16_S16 : S160x16.Reduces [0] S16
  inb_S1x3x160_S1x1x16_0_2_0 : ∀ a, (![0, 2, 0] : Fin 3 → Nat) a + S1x1x16.size a ≤ S1x3x160.size a
  inb_S1x1x160x160x160_S1x1x160x160x17_0_0_0_0_16 : ∀ a, (![0, 0, 0, 0, 16] : Fin 5 → Nat) a + S1x1x160x160x17.size a ≤ S1x1x160x160x160.size a
  inb_S1x3x160_S1x1x16_0_2_16 : ∀ a, (![0, 2, 16] : Fin 3 → Nat) a + S1x1x16.size a ≤ S1x3x160.size a
  inb_S1x1x160x160x160_S1x1x160x160x17_0_0_0_0_32 : ∀ a, (![0, 0, 0, 0, 32] : Fin 5 → Nat) a + S1x1x160x160x17.size a ≤ S1x1x160x160x160.size a
  inb_S1x3x160_S1x1x16_0_2_32 : ∀ a, (![0, 2, 32] : Fin 3 → Nat) a + S1x1x16.size a ≤ S1x3x160.size a
  inb_S1x1x160x160x160_S1x1x160x160x17_0_0_0_0_48 : ∀ a, (![0, 0, 0, 0, 48] : Fin 5 → Nat) a + S1x1x160x160x17.size a ≤ S1x1x160x160x160.size a
  inb_S1x3x160_S1x1x16_0_2_48 : ∀ a, (![0, 2, 48] : Fin 3 → Nat) a + S1x1x16.size a ≤ S1x3x160.size a
  inb_S1x1x160x160x160_S1x1x160x160x17_0_0_0_0_64 : ∀ a, (![0, 0, 0, 0, 64] : Fin 5 → Nat) a + S1x1x160x160x17.size a ≤ S1x1x160x160x160.size a
  inb_S1x3x160_S1x1x16_0_2_64 : ∀ a, (![0, 2, 64] : Fin 3 → Nat) a + S1x1x16.size a ≤ S1x3x160.size a
  inb_S1x1x160x160x160_S1x1x160x160x17_0_0_0_0_80 : ∀ a, (![0, 0, 0, 0, 80] : Fin 5 → Nat) a + S1x1x160x160x17.size a ≤ S1x1x160x160x160.size a
  inb_S1x3x160_S1x1x16_0_2_80 : ∀ a, (![0, 2, 80] : Fin 3 → Nat) a + S1x1x16.size a ≤ S1x3x160.size a
  inb_S1x1x160x160x160_S1x1x160x160x17_0_0_0_0_96 : ∀ a, (![0, 0, 0, 0, 96] : Fin 5 → Nat) a + S1x1x160x160x17.size a ≤ S1x1x160x160x160.size a
  inb_S1x3x160_S1x1x16_0_2_96 : ∀ a, (![0, 2, 96] : Fin 3 → Nat) a + S1x1x16.size a ≤ S1x3x160.size a
  inb_S1x1x160x160x160_S1x1x160x160x17_0_0_0_0_112 : ∀ a, (![0, 0, 0, 0, 112] : Fin 5 → Nat) a + S1x1x160x160x17.size a ≤ S1x1x160x160x160.size a
  inb_S1x3x160_S1x1x16_0_2_112 : ∀ a, (![0, 2, 112] : Fin 3 → Nat) a + S1x1x16.size a ≤ S1x3x160.size a
  inb_S1x1x160x160x160_S1x1x160x160x17_0_0_0_0_128 : ∀ a, (![0, 0, 0, 0, 128] : Fin 5 → Nat) a + S1x1x160x160x17.size a ≤ S1x1x160x160x160.size a
  inb_S1x3x160_S1x1x16_0_2_128 : ∀ a, (![0, 2, 128] : Fin 3 → Nat) a + S1x1x16.size a ≤ S1x3x160.size a
  inb_S1x1x160x160x160_S1x1x160x160x16_0_0_0_0_144 : ∀ a, (![0, 0, 0, 0, 144] : Fin 5 → Nat) a + S1x1x160x160x16.size a ≤ S1x1x160x160x160.size a
  h_S1x1x160x160x16 : 0 < S1x1x160x160x16.numel
  shapeCasts_S1x1x160x160x16_S160x160x16 : S1x1x160x160x16.ShapeCasts S160x160x16
  slices_S160x160x16_o0_0_1_S160x160x15 : S160x160x16.Slices ![0, 0, 1] S160x160x15
  slices_S160x160x16_o0_0_0_S160x160x15 : S160x160x16.Slices ![0, 0, 0] S160x160x15
  reduces_S160x160x15_S160x15 : S160x160x15.Reduces [0] S160x15
  reduces_S160x15_S15 : S160x15.Reduces [0] S15
  inb_S1x3x160_S1x1x15_0_2_144 : ∀ a, (![0, 2, 144] : Fin 3 → Nat) a + S1x1x15.size a ≤ S1x3x160.size a
  inb_S1x3x160_S1x3x1_0_0_159 : ∀ a, (![0, 0, 159] : Fin 3 → Nat) a + S1x3x1.size a ≤ S1x3x160.size a
  h_S1x3x1 : 0 < S1x3x1.numel
  shapeCasts_S1x3x1_S3x1 : S1x3x1.ShapeCasts S3x1
  shapeCasts_S3x1_S1x3x1 : S3x1.ShapeCasts S1x3x1
  slices_S8x3x160_S8x3x159_0_0_0 : S8x3x160.Slices ![0, 0, 0] S8x3x159
  bcast_S_S3 : S_.BroadcastsInDim S3 (![] : Fin 0 → Fin S3.rank)
  shapeCasts_S3_S1x3x1 : S3.ShapeCasts S1x3x1
  bcast_S1x3x1_S8x3x159_0_1_2 : S1x3x1.BroadcastsInDim S8x3x159 (![0, 1, 2] : Fin 3 → Fin S8x3x159.rank)
  reducesTo_S8x3x159_S3_d0_2 : S8x3x159.ReducesTo [0, 2] S3
  h_S_ : 0 < S_.numel
  reducesTo_S3_S_d0 : S3.ReducesTo [0] S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1x160x160x160.size a ≤ S8x1x160x160x160.size a
  hwx0_0 : ∀ i : grid0.Coords, EltTy.bits .f32 = 32 ∨ (Rect.block (s := S8x1x160x160x160) S1x1x160x160x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x160.size a ≤ S8x3x160.size a
  hwx0_1 : ∀ i : grid0.Coords, EltTy.bits .f32 = 32 ∨ (Rect.block (s := S8x3x160) S1x3x160.size (cc0_transform_1 i) (hinb0_1 i)).WholeWords (EltTy.packing .f32)

variable [Facts₀]

abbrev win0_0 : Pipeline.Window sig grid0 :=
  Pipeline.Window.ofSpec (Memref.whole main_arg0) S1x1x160x160x160.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x160.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x1x160x160x160 : Shape := ⟨5, ![8, 1, 160, 160, 160]⟩
abbrev S3 : Shape := ⟨1, ![3]⟩
abbrev S8x1x159x160x160 : Shape := ⟨5, ![8, 1, 159, 160, 160]⟩
abbrev S_ : Shape := ⟨0, ![]⟩
abbrev S8x159 : Shape := ⟨2, ![8, 159]⟩
abbrev S1 : Shape := ⟨1, ![1]⟩
abbrev S8x1x160x159x160 : Shape := ⟨5, ![8, 1, 160, 159, 160]⟩
abbrev S8x1x160x160x159 : Shape := ⟨5, ![8, 1, 160, 160, 159]⟩

abbrev nBuf : Space → Nat
  | .hbm => 69
  | .vmem => 0
  | .smem => 0
  | _ => 0

abbrev bufTy : (tb : Table) → Fin (tcTables nBuf tb) → BufTy
  | .hbm, ⟨0, _⟩ => ⟨S8x1x160x160x160, .f32⟩
  | .hbm, ⟨1, _⟩ => ⟨S3, .f32⟩
  | .hbm, ⟨2, _⟩ => ⟨S3, .f32⟩
  | .hbm, ⟨3, _⟩ => ⟨S8x1x159x160x160, .f32⟩
  | .hbm, ⟨4, _⟩ => ⟨S8x1x159x160x160, .f32⟩
  | .hbm, ⟨5, _⟩ => ⟨S8x1x159x160x160, .f32⟩
  | .hbm, ⟨6, _⟩ => ⟨S8x1x159x160x160, .f32⟩
  | .hbm, ⟨7, _⟩ => ⟨S_, .f32⟩
  | .hbm, ⟨8, _⟩ => ⟨S8x159, .f32⟩
  | .hbm, ⟨9, _⟩ => ⟨S8x159, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x159, .f32⟩
  | .hbm, ⟨16, _⟩ => ⟨S8x159, .f32⟩
  | .hbm, ⟨17, _⟩ => ⟨S8x159, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x1x160x159x160, .f32⟩
  | .hbm, ⟨26, _⟩ => ⟨S8x1x160x159x160, .f32⟩
  | .hbm, ⟨27, _⟩ => ⟨S8x1x160x159x160, .f32⟩
  | .hbm, ⟨28, _⟩ => ⟨S8x1x160x159x160, .f32⟩
  | .hbm, ⟨29, _⟩ => ⟨S_, .f32⟩
  | .hbm, ⟨30, _⟩ => ⟨S8x159, .f32⟩
  | .hbm, ⟨31, _⟩ => ⟨S8x159, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x159, .f32⟩
  | .hbm, ⟨38, _⟩ => ⟨S8x159, .f32⟩
  | .hbm, ⟨39, _⟩ => ⟨S8x159, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x1x160x160x159, .f32⟩
  | .hbm, ⟨47, _⟩ => ⟨S8x1x160x160x159, .f32⟩
  | .hbm, ⟨48, _⟩ => ⟨S8x1x160x160x159, .f32⟩
  | .hbm, ⟨49, _⟩ => ⟨S8x1x160x160x159, .f32⟩
  | .hbm, ⟨50, _⟩ => ⟨S_, .f32⟩
  | .hbm, ⟨51, _⟩ => ⟨S8x159, .f32⟩
  | .hbm, ⟨52, _⟩ => ⟨S8x159, .f32⟩
  | .hbm, ⟨53, _⟩ => ⟨S1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x159, .f32⟩
  | .hbm, ⟨59, _⟩ => ⟨S8x159, .f32⟩
  | .hbm, ⟨60, _⟩ => ⟨S8x159, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S8x1x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call2_v0 : Ref sig .tc := ⟨.hbm, 46, rfl⟩
abbrev main_call2_v1 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  slices_S8x1x160x160x160_S8x1x159x160x160_0_0_1_0_0 : S8x1x160x160x160.Slices ![0, 0, 1, 0, 0] S8x1x159x160x160
  slices_S8x1x160x160x160_S8x1x159x160x160_0_0_0_0_0 : S8x1x160x160x160.Slices ![0, 0, 0, 0, 0] S8x1x159x160x160
  reducesTo_S8x1x159x160x160_S8x159_d1_3_4 : S8x1x159x160x160.ReducesTo [1, 3, 4] S8x159
  h_S_ : 0 < S_.numel
  slices_S3_S1_0 : S3.Slices ![0] S1
  shapeCasts_S1_S_ : S1.ShapeCasts S_
  bcast_S_S8x159 : S_.BroadcastsInDim S8x159 (![] : Fin 0 → Fin S8x159.rank)
  reducesTo_S8x159_S_d0_1 : S8x159.ReducesTo [0, 1] S_
  slices_S8x1x160x160x160_S8x1x160x159x160_0_0_0_1_0 : S8x1x160x160x160.Slices ![0, 0, 0, 1, 0] S8x1x160x159x160
  slices_S8x1x160x160x160_S8x1x160x159x160_0_0_0_0_0 : S8x1x160x160x160.Slices ![0, 0, 0, 0, 0] S8x1x160x159x160
  reducesTo_S8x1x160x159x160_S8x159_d1_2_4 : S8x1x160x159x160.ReducesTo [1, 2, 4] S8x159
  slices_S3_S1_1 : S3.Slices ![1] S1
  slices_S8x1x160x160x160_S8x1x160x160x159_0_0_0_0_1 : S8x1x160x160x160.Slices ![0, 0, 0, 0, 1] S8x1x160x160x159
  slices_S8x1x160x160x160_S8x1x160x160x159_0_0_0_0_0 : S8x1x160x160x160.Slices ![0, 0, 0, 0, 0] S8x1x160x160x159
  reducesTo_S8x1x160x160x159_S8x159_d1_2_3 : S8x1x160x160x159.ReducesTo [1, 2, 3] S8x159
  slices_S3_S1_2 : S3.Slices ![2] S1

variable [Facts₀]

class Facts : Prop extends Facts₀ where

variable [Facts]
-- ==== Proof.Spec.lean ====
/-
  The mathematics both programs compute, on the extended reals, with nothing assumed finite.

  A volume x[b, 0, d, h, w] has 8 batches, one channel and 160 points on each of three spatial axes; the
  cube of batch b is f d h w = x[b, 0, d, h, w].  For each spatial axis take the difference of every pair of
  adjacent slices along that axis, square it, and add the squares over the two other axes: a squared
  distance per slice pair s < 159 (`sqD`, `sqH`, `sqW`; the order of the two sums is the one the tiled program
  uses, and on a commutative monoid any other order gives the same value).  Each squared distance q goes
  through the radial kernel exp(-q / (2 * (sigma_a * sigma_a))) with one width sigma_a per axis; the kernels
  of the 8 * 159 = 1272 pairs are added, divided by 1272 and negated (`axisTerm`); the three axes are added
  from zero and the total is divided by 3 (`result`).  The float literals are kept as their words.
-/
import Idealize.ShloMosaic.PureOps.Ideal
import Idealize.ShloMosaic.Lib.ValueIdx

noncomputable section

namespace SliceRbf

open Idealize.ShloMosaic Idealize.ShloMosaic.ValueIdx

/-- The volume as a function of its index (b, 0, d, h, w). -/
abbrev Vol : Type := (⟨5, ![8, 1, 160, 160, 160]⟩ : Shape).Idx → EReal
/-- One batch's cube as a function of (d, h, w). -/
abbrev Cube : Type := Fin 160 → Fin 160 → Fin 160 → EReal

/-- The cube of batch `b`. -/
def cube (x : Vol) (b : Fin 8) : Cube := fun d h w => x (ix5 b 0 d h w)

/-- The slice after slice `s` of 159 along an axis of 160 points, -/
abbrev up (s : Fin 159) : Fin 160 := ⟨s.val + 1, by have := s.isLt; omega⟩
/-- and slice `s` itself as a point of the axis. -/
abbrev lo (s : Fin 159) : Fin 160 := ⟨s.val, by have := s.isLt; omega⟩

/-- Squared distance between slices s and s+1 along the first axis: over h, then over w inside. -/
def sqD (f : Cube) (s : Fin 159) : EReal :=
  ∑ h : Fin 160, ∑ w : Fin 160, (f (up s) h w - f (lo s) h w) * (f (up s) h w - f (lo s) h w)
/-- Along the second axis: over w, then over d inside. -/
def sqH (f : Cube) (s : Fin 159) : EReal :=
  ∑ w : Fin 160, ∑ d : Fin 160, (f d (up s) w - f d (lo s) w) * (f d (up s) w - f d (lo s) w)
/-- Along the third axis: over h, then over d inside. -/
def sqW (f : Cube) (s : Fin 159) : EReal :=
  ∑ h : Fin 160, ∑ d : Fin 160, (f d h (up s) - f d h (lo s)) * (f d h (up s) - f d h (lo s))

/-- The three by axis number. -/
def sqAx (f : Cube) (a : Fin 3) (s : Fin 159) : EReal :=
  match a with
  | ⟨0, _⟩ => sqD f s
  | ⟨1, _⟩ => sqH f s
  | ⟨2, _⟩ => sqW f s

theorem sqAx_zero (f : Cube) (s : Fin 159) : sqAx f 0 s = sqD f s := rfl
theorem sqAx_one (f : Cube) (s : Fin 159) : sqAx f 1 s = sqH f s := rfl
theorem sqAx_two (f : Cube) (s : Fin 159) : sqAx f 2 s = sqW f s := rfl

/-- The float words of 0, 2, 1272 and 3 as extended reals. -/
abbrev zeroW : EReal := Ideal.ofBits .f32 0x00000000#32
abbrev twoW : EReal := Ideal.ofBits .f32 0x40000000#32
abbrev countW : EReal := Ideal.ofBits .f32 0x449F0000#32
abbrev threeW : EReal := Ideal.ofBits .f32 0x40400000#32

/-- Entry (a, s) of one cube's three rows of 160, by plain numbers: the squared distance of slice pair s on axis a
    for s < 159, and the zero word in the unused last place. -/
def row (f : Cube) (a s : Nat) : EReal :=
  if h : a < 3 ∧ s < 159 then sqAx f ⟨a, h.1⟩ ⟨s, h.2⟩ else zeroW

theorem row_of_lt (f : Cube) (a : Fin 3) (s : Fin 159) : row f a.val s.val = sqAx f a s := dif_pos ⟨a.isLt, s.isLt⟩
theorem row_last (f : Cube) (a : Nat) : row f a 159 = zeroW := dif_neg (by omega)

/-- The block [1, 3, 160] a tiled program leaves for one batch: the three rows of its cube. -/
def blockTable (f : Cube) : (⟨3, ![1, 3, 160]⟩ : Shape).Idx → EReal := fun y => row f (y 1).val (y 2).val

/-- The table [8, 3, 160] it leaves for the volume: entry (b, a, s) is row a of the cube of batch b at s. -/
def table (x : Vol) : (⟨3, ![8, 3, 160]⟩ : Shape).Idx → EReal := fun i =>
  row (cube x ⟨(i 0).val, (i 0).isLt⟩) (i 1).val (i 2).val

/-- The three widths: the exponential of each of the three log-widths. -/
def widths (ls : (⟨1, ![3]⟩ : Shape).Idx → EReal) : Fin 3 → EReal := fun a => Ideal.exp (ls (ix1 a))

/-- One axis's share: minus the mean over the 1272 slice pairs of the radial kernel of the squared distance. -/
def axisTerm (x : Vol) (sigma : Fin 3 → EReal) (a : Fin 3) : EReal :=
  -(Ideal.div (zeroW + ∑ b : Fin 8, ∑ s : Fin 159,
      Ideal.exp (Ideal.div (-(sqAx (cube x b) a s)) (twoW * (sigma a * sigma a)))) countW)

/-- The result: the three shares added from zero, first to last, divided by 3. -/
def result (x : Vol) (sigma : Fin 3 → EReal) : EReal :=
  Ideal.div (((zeroW + axisTerm x sigma 0) + axisTerm x sigma 1) + axisTerm x sigma 2) threeW

end SliceRbf

end
-- ==== Proof.LibAdjacentSquares.lean ====
/-
  Sums of squared differences of adjacent slices of a rank-3 array, read index by index on the extended reals.

  A tiled program forms, from a slab t of m consecutive slices along one axis, the n = m - 1 differences of
  adjacent slices (a slice of t from offset 1 minus the slice from offset 0), squares them and adds the squares
  over the two other axes, one axis at a time.  Entry p of the result is the double sum, over the two other
  coordinates, of (t at slice p+1 minus t at slice p) squared.  The three lemmas `adj0`, `adj1`, `adj2` say
  this for a slab cut along the first, second and third axis, for any extents; the order of the two sums is the
  order in which the program adds (inner sum first).  After them \`chain0\`, \`chain1\`, \`chain2\`: the same with the slab loaded as a block [1, 1, ·, ·, ·] and the
  result stored as a block [1, 1, n].  Before them: a sum of a rank-3 or rank-2 array over one
  axis, a slice of a rank-3 array, and the casts [1,1,a,b,c] -> [a,b,c] and [n] -> [1,1,n], each read at
  coordinates.  Nothing is assumed finite.
-/
import Idealize.ShloMosaic.PureOps.Ideal.Laws
import Idealize.ShloMosaic.Lib.ValueIdx
import Idealize.ShloMosaic.Lib.Pipeline.Value

noncomputable section

namespace AdjacentSquares

open Idealize.ShloMosaic Idealize.ShloMosaic.ValueIdx

/-! ## Sums over one axis -/

/-- The sum of a rank-3 array over its last axis, at (p, q). -/
theorem sum3_axis2 {n0 n1 n2 : Nat} (v : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = FKind.add.neutral .f32 hφ) (p : Fin n0) (q : Fin n1) :
    multiReduction .add [2] ⟨2, ![n0, n1]⟩ v 0x00000000#32 h hφ hacc (ix2 p q) = ∑ k : Fin n2, v (ix3 p q k) :=
  (Ideal.multiReduction_add_single v 0x00000000#32 h hφ hacc (ix2 p q)).trans
    (Finset.sum_congr rfl fun k _ => congrArg v (funext fun a => Fin.ext (by
      match a with
      | ⟨0, _⟩ => rfl
      | ⟨1, _⟩ => rfl
      | ⟨2, _⟩ => rfl)))

/-- The sum of a rank-3 array over its first axis, at (q, r). -/
theorem sum3_axis0 {n0 n1 n2 : Nat} (v : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ) (q : Fin n1) (r : Fin n2) :
    multiReduction .add [0] ⟨2, ![n1, n2]⟩ v 0x00000000#32 h hφ hacc (ix2 q r) = ∑ k : Fin n0, v (ix3 k q r) :=
  (Ideal.multiReduction_add_single v 0x00000000#32 h hφ hacc (ix2 q r)).trans
    (Finset.sum_congr rfl fun k _ => congrArg v (funext fun a => Fin.ext (by
      match a with
      | ⟨0, _⟩ => rfl
      | ⟨1, _⟩ => rfl
      | ⟨2, _⟩ => rfl)))

/-- The sum of a rank-2 array over its last axis, at p. -/
theorem sum2_axis1 {n0 n1 : Nat} (v : FVec Ideal ⟨2, ![n0, n1]⟩ .f32)
    (h : (⟨2, ![n0, n1]⟩ : Shape).Reduces [1] ⟨1, ![n0]⟩) (hφ : FKind.Formats .f32)
    (hacc : (0x00000000#32 : BitVec 32) = FKind.add.neutral .f32 hφ) (p : Fin n0) :
    multiReduction .add [1] ⟨1, ![n0]⟩ v 0x00000000#32 h hφ hacc (ix1 p) = ∑ k : Fin n1, v (ix2 p k) :=
  (Ideal.multiReduction_add_single v 0x00000000#32 h hφ hacc (ix1 p)).trans
    (Finset.sum_congr rfl fun k _ => congrArg v (funext fun a => Fin.ext (by
      match a with
      | ⟨0, _⟩ => rfl
      | ⟨1, _⟩ => rfl)))

/-- The sum of a rank-2 array over its first axis, at q. -/
theorem sum2_axis0 {n0 n1 : Nat} (v : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction .add [0] ⟨1, ![n1]⟩ v 0x00000000#32 h hφ hacc (ix1 q) = ∑ k : Fin n0, v (ix2 k q) :=
  (Ideal.multiReduction_add_single v 0x00000000#32 h hφ hacc (ix1 q)).trans
    (Finset.sum_congr rfl fun k _ => congrArg v (funext fun a => Fin.ext (by
      match a with
      | ⟨0, _⟩ => rfl
      | ⟨1, _⟩ => rfl)))

/-! ## A slice and two casts -/

/-- A unit-stride slice of a rank-3 array at (j0, j1, j2) is the array at the offsets plus the coordinates. -/
theorem slice3 {α : Type} {n0 n1 n2 m0 m1 m2 : Nat} (o0 o1 o2 : Nat) (X : (⟨3, ![n0, n1, n2]⟩ : Shape).Idx → α)
    (h : (⟨3, ![n0, n1, n2]⟩ : Shape).Slices ![o0, o1, o2] ⟨3, ![m0, m1, m2]⟩)
    (j0 : Fin m0) (j1 : Fin m1) (j2 : Fin m2) (k0 : Fin n0) (k1 : Fin n1) (k2 : Fin n2)
    (h0 : k0.val = o0 + j0.val) (h1 : k1.val = o1 + j1.val) (h2 : k2.val = o2 + j2.val) :
    extractStridedSlice ⟨3, ![m0, m1, m2]⟩ ![o0, o1, o2] X h (ix3 j0 j1 j2) = X (ix3 k0 k1 k2) :=
  extractStridedSlice_apply _ _ _ _ _ (fun ax => by
    match ax with
    | ⟨0, _⟩ => exact h0
    | ⟨1, _⟩ => exact h1
    | ⟨2, _⟩ => exact h2)

/-- A block [1, 1, a, b, c] viewed as [a, b, c] reads (0, 0, i, j, k) at (i, j, k). -/
theorem cast5_3 {α : Type} {a b c : Nat} (v : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ v h (ix3 i j k) = v (ix5 0 0 i j k) :=
  shapeCast_apply v h (ix3 i j k) (ix5 0 0 i j k) (by
    rw [Shape.rowMajor_val_three, Shape.rowMajor_val_five]
    show ((((0 * 1 + 0) * a + i.val) * b + j.val) * c + k.val) = (i.val * b + j.val) * c + k.val
    simp)

/-- A vector [n] stored as a block [1, 1, n] reads p at (0, 0, p). -/
theorem cast1_3 {α : Type} {n : Nat} (v : (⟨1, ![n]⟩ : Shape).Idx → α)
    (h : (⟨1, ![n]⟩ : Shape).ShapeCasts ⟨3, ![1, 1, n]⟩) (u0 u1 : Fin 1) (p : Fin n) :
    shapeCast ⟨3, ![1, 1, n]⟩ v h (ix3 u0 u1 p) = v (ix1 p) :=
  shapeCast_apply v h (ix3 u0 u1 p) (ix1 p) (by
    rw [Shape.rowMajor_val_three, Shape.rowMajor_val_one]
    show p.val = (u0.val * 1 + u1.val) * n + p.val
    have h0 : u0.val = 0 := by have := u0.isLt; omega
    have h1 : u1.val = 0 := by have := u1.isLt; omega
    rw [h0, h1]; simp)

/-! ## Squared adjacent differences summed over the two other axes -/

/-- Slab cut along the FIRST axis, [m, a, b], n ≤ m - 1 pairs: summed over the last axis, then over the middle one. -/
theorem adj0 {m n a b : Nat} (hm : n + 1 ≤ m) (t : FVec Ideal ⟨3, ![m, a, b]⟩ .f32)
    (hs1 : (⟨3, ![m, a, b]⟩ : Shape).Slices ![1, 0, 0] ⟨3, ![n, a, b]⟩)
    (hs0 : (⟨3, ![m, a, b]⟩ : Shape).Slices ![0, 0, 0] ⟨3, ![n, a, b]⟩)
    (h2 : (⟨3, ![n, a, b]⟩ : Shape).Reduces [2] ⟨2, ![n, a]⟩) (h1 : (⟨2, ![n, a]⟩ : Shape).Reduces [1] ⟨1, ![n]⟩)
    (hφ hφ' : FKind.Formats .f32) (hacc : (0x00000000#32 : BitVec 32) = FKind.add.neutral .f32 hφ)
    (hacc' : (0x00000000#32 : BitVec 32) = FKind.add.neutral .f32 hφ') (p : Fin n) :
    multiReduction .add [1] ⟨1, ![n]⟩
      (multiReduction .add [2] ⟨2, ![n, a]⟩
        (mulf (subf (extractStridedSlice ⟨3, ![n, a, b]⟩ ![1, 0, 0] t hs1) (extractStridedSlice ⟨3, ![n, a, b]⟩ ![0, 0, 0] t hs0))
              (subf (extractStridedSlice ⟨3, ![n, a, b]⟩ ![1, 0, 0] t hs1) (extractStridedSlice ⟨3, ![n, a, b]⟩ ![0, 0, 0] t hs0)))
        0x00000000#32 h2 hφ hacc) 0x00000000#32 h1 hφ' hacc' (ix1 p)
    = ∑ k : Fin a, ∑ l : Fin b,
        (t (ix3 ⟨p.val + 1, by have := p.isLt; omega⟩ k l) - t (ix3 ⟨p.val, by have := p.isLt; omega⟩ k l))
          * (t (ix3 ⟨p.val + 1, by have := p.isLt; omega⟩ k l) - t (ix3 ⟨p.val, by have := p.isLt; omega⟩ k l)) := by
  refine (sum2_axis1 _ h1 hφ' hacc' p).trans (Finset.sum_congr rfl fun k _ => ?_)
  refine (sum3_axis2 _ h2 hφ hacc p k).trans (Finset.sum_congr rfl fun l _ => ?_)
  have e1 := slice3 1 0 0 t hs1 p k l ⟨p.val + 1, by have := p.isLt; omega⟩ k l
    (by show p.val + 1 = 1 + p.val; omega) (Nat.zero_add _).symm (Nat.zero_add _).symm
  have e0 := slice3 0 0 0 t hs0 p k l ⟨p.val, by have := p.isLt; omega⟩ k l
    (Nat.zero_add _).symm (Nat.zero_add _).symm (Nat.zero_add _).symm
  show (extractStridedSlice _ _ t hs1 (ix3 p k l) - extractStridedSlice _ _ t hs0 (ix3 p k l))
      * (extractStridedSlice _ _ t hs1 (ix3 p k l) - extractStridedSlice _ _ t hs0 (ix3 p k l)) = _
  rw [e1, e0]

/-- Slab cut along the MIDDLE axis, [a, m, b]: summed over the first axis, then over the last one. -/
theorem adj1 {m n a b : Nat} (hm : n + 1 ≤ m) (t : FVec Ideal ⟨3, ![a, m, b]⟩ .f32)
    (hs1 : (⟨3, ![a, m, b]⟩ : Shape).Slices ![0, 1, 0] ⟨3, ![a, n, b]⟩)
    (hs0 : (⟨3, ![a, m, b]⟩ : Shape).Slices ![0, 0, 0] ⟨3, ![a, n, b]⟩)
    (h0 : (⟨3, ![a, n, b]⟩ : Shape).Reduces [0] ⟨2, ![n, b]⟩) (h1 : (⟨2, ![n, b]⟩ : Shape).Reduces [1] ⟨1, ![n]⟩)
    (hφ hφ' : FKind.Formats .f32) (hacc : (0x00000000#32 : BitVec 32) = FKind.add.neutral .f32 hφ)
    (hacc' : (0x00000000#32 : BitVec 32) = FKind.add.neutral .f32 hφ') (p : Fin n) :
    multiReduction .add [1] ⟨1, ![n]⟩
      (multiReduction .add [0] ⟨2, ![n, b]⟩
        (mulf (subf (extractStridedSlice ⟨3, ![a, n, b]⟩ ![0, 1, 0] t hs1) (extractStridedSlice ⟨3, ![a, n, b]⟩ ![0, 0, 0] t hs0))
              (subf (extractStridedSlice ⟨3, ![a, n, b]⟩ ![0, 1, 0] t hs1) (extractStridedSlice ⟨3, ![a, n, b]⟩ ![0, 0, 0] t hs0)))
        0x00000000#32 h0 hφ hacc) 0x00000000#32 h1 hφ' hacc' (ix1 p)
    = ∑ l : Fin b, ∑ k : Fin a,
        (t (ix3 k ⟨p.val + 1, by have := p.isLt; omega⟩ l) - t (ix3 k ⟨p.val, by have := p.isLt; omega⟩ l))
          * (t (ix3 k ⟨p.val + 1, by have := p.isLt; omega⟩ l) - t (ix3 k ⟨p.val, by have := p.isLt; omega⟩ l)) := by
  refine (sum2_axis1 _ h1 hφ' hacc' p).trans (Finset.sum_congr rfl fun l _ => ?_)
  refine (sum3_axis0 _ h0 hφ hacc p l).trans (Finset.sum_congr rfl fun k _ => ?_)
  have e1 := slice3 0 1 0 t hs1 k p l k ⟨p.val + 1, by have := p.isLt; omega⟩ l
    (Nat.zero_add _).symm (by show p.val + 1 = 1 + p.val; omega) (Nat.zero_add _).symm
  have e0 := slice3 0 0 0 t hs0 k p l k ⟨p.val, by have := p.isLt; omega⟩ l
    (Nat.zero_add _).symm (Nat.zero_add _).symm (Nat.zero_add _).symm
  show (extractStridedSlice _ _ t hs1 (ix3 k p l) - extractStridedSlice _ _ t hs0 (ix3 k p l))
      * (extractStridedSlice _ _ t hs1 (ix3 k p l) - extractStridedSlice _ _ t hs0 (ix3 k p l)) = _
  rw [e1, e0]

/-- Slab cut along the LAST axis, [a, b, m]: summed over the first axis, then over the (former) middle one. -/
theorem adj2 {m n a b : Nat} (hm : n + 1 ≤ m) (t : FVec Ideal ⟨3, ![a, b, m]⟩ .f32)
    (hs1 : (⟨3, ![a, b, m]⟩ : Shape).Slices ![0, 0, 1] ⟨3, ![a, b, n]⟩)
    (hs0 : (⟨3, ![a, b, m]⟩ : Shape).Slices ![0, 0, 0] ⟨3, ![a, b, n]⟩)
    (h0 : (⟨3, ![a, b, n]⟩ : Shape).Reduces [0] ⟨2, ![b, n]⟩) (h0' : (⟨2, ![b, n]⟩ : Shape).Reduces [0] ⟨1, ![n]⟩)
    (hφ hφ' : FKind.Formats .f32) (hacc : (0x00000000#32 : BitVec 32) = FKind.add.neutral .f32 hφ)
    (hacc' : (0x00000000#32 : BitVec 32) = FKind.add.neutral .f32 hφ') (p : Fin n) :
    multiReduction .add [0] ⟨1, ![n]⟩
      (multiReduction .add [0] ⟨2, ![b, n]⟩
        (mulf (subf (extractStridedSlice ⟨3, ![a, b, n]⟩ ![0, 0, 1] t hs1) (extractStridedSlice ⟨3, ![a, b, n]⟩ ![0, 0, 0] t hs0))
              (subf (extractStridedSlice ⟨3, ![a, b, n]⟩ ![0, 0, 1] t hs1) (extractStridedSlice ⟨3, ![a, b, n]⟩ ![0, 0, 0] t hs0)))
        0x00000000#32 h0 hφ hacc) 0x00000000#32 h0' hφ' hacc' (ix1 p)
    = ∑ l : Fin b, ∑ k : Fin a,
        (t (ix3 k l ⟨p.val + 1, by have := p.isLt; omega⟩) - t (ix3 k l ⟨p.val, by have := p.isLt; omega⟩))
          * (t (ix3 k l ⟨p.val + 1, by have := p.isLt; omega⟩) - t (ix3 k l ⟨p.val, by have := p.isLt; omega⟩)) := by
  refine (sum2_axis0 _ h0' hφ' hacc' p).trans (Finset.sum_congr rfl fun l _ => ?_)
  refine (sum3_axis0 _ h0 hφ hacc l p).trans (Finset.sum_congr rfl fun k _ => ?_)
  have e1 := slice3 0 0 1 t hs1 k l p k l ⟨p.val + 1, by have := p.isLt; omega⟩
    (Nat.zero_add _).symm (Nat.zero_add _).symm (by show p.val + 1 = 1 + p.val; omega)
  have e0 := slice3 0 0 0 t hs0 k l p k l ⟨p.val, by have := p.isLt; omega⟩
    (Nat.zero_add _).symm (Nat.zero_add _).symm (Nat.zero_add _).symm
  show (extractStridedSlice _ _ t hs1 (ix3 k l p) - extractStridedSlice _ _ t hs0 (ix3 k l p))
      * (extractStridedSlice _ _ t hs1 (ix3 k l p) - extractStridedSlice _ _ t hs0 (ix3 k l p)) = _
  rw [e1, e0]

/-! ## The whole chain, from a loaded slab [1, 1, ·, ·, ·] to the stored block [1, 1, n] -/

/-- Slab [1, 1, m, a, b] cut along its third axis: entry (0, 0, p) of the stored block. -/
theorem chain0 {m n a b : Nat} (hm : n + 1 ≤ m) (v : FVec Ideal ⟨5, ![1, 1, m, a, b]⟩ .f32)
    (hc5 : (⟨5, ![1, 1, m, a, b]⟩ : Shape).ShapeCasts ⟨3, ![m, a, b]⟩)
    (hs1 : (⟨3, ![m, a, b]⟩ : Shape).Slices ![1, 0, 0] ⟨3, ![n, a, b]⟩)
    (hs0 : (⟨3, ![m, a, b]⟩ : Shape).Slices ![0, 0, 0] ⟨3, ![n, a, b]⟩)
    (h2 : (⟨3, ![n, a, b]⟩ : Shape).Reduces [2] ⟨2, ![n, a]⟩) (h1 : (⟨2, ![n, a]⟩ : Shape).Reduces [1] ⟨1, ![n]⟩)
    (hφ hφ' : FKind.Formats .f32) (hacc : (0x00000000#32 : BitVec 32) = FKind.add.neutral .f32 hφ)
    (hacc' : (0x00000000#32 : BitVec 32) = FKind.add.neutral .f32 hφ')
    (hc1 : (⟨1, ![n]⟩ : Shape).ShapeCasts ⟨3, ![1, 1, n]⟩) (u0 u1 : Fin 1) (p : Fin n) :
    shapeCast ⟨3, ![1, 1, n]⟩
      (multiReduction .add [1] ⟨1, ![n]⟩
        (multiReduction .add [2] ⟨2, ![n, a]⟩
          (mulf (subf (extractStridedSlice ⟨3, ![n, a, b]⟩ ![1, 0, 0] (shapeCast ⟨3, ![m, a, b]⟩ v hc5) hs1)
                      (extractStridedSlice ⟨3, ![n, a, b]⟩ ![0, 0, 0] (shapeCast ⟨3, ![m, a, b]⟩ v hc5) hs0))
                (subf (extractStridedSlice ⟨3, ![n, a, b]⟩ ![1, 0, 0] (shapeCast ⟨3, ![m, a, b]⟩ v hc5) hs1)
                      (extractStridedSlice ⟨3, ![n, a, b]⟩ ![0, 0, 0] (shapeCast ⟨3, ![m, a, b]⟩ v hc5) hs0)))
          0x00000000#32 h2 hφ hacc) 0x00000000#32 h1 hφ' hacc') hc1 (ix3 u0 u1 p)
    = ∑ k : Fin a, ∑ l : Fin b,
        (v (ix5 0 0 ⟨p.val + 1, by have := p.isLt; omega⟩ k l) - v (ix5 0 0 ⟨p.val, by have := p.isLt; omega⟩ k l))
          * (v (ix5 0 0 ⟨p.val + 1, by have := p.isLt; omega⟩ k l) - v (ix5 0 0 ⟨p.val, by have := p.isLt; omega⟩ k l)) := by
  refine (cast1_3 _ hc1 u0 u1 p).trans ?_
  refine (adj0 hm _ hs1 hs0 h2 h1 hφ hφ' hacc hacc' p).trans ?_
  refine Finset.sum_congr rfl fun k _ => Finset.sum_congr rfl fun l _ => ?_
  rw [cast5_3, cast5_3]

/-- Slab [1, 1, a, m, b] cut along its fourth axis. -/
theorem chain1 {m n a b : Nat} (hm : n + 1 ≤ m) (v : FVec Ideal ⟨5, ![1, 1, a, m, b]⟩ .f32)
    (hc5 : (⟨5, ![1, 1, a, m, b]⟩ : Shape).ShapeCasts ⟨3, ![a, m, b]⟩)
    (hs1 : (⟨3, ![a, m, b]⟩ : Shape).Slices ![0, 1, 0] ⟨3, ![a, n, b]⟩)
    (hs0 : (⟨3, ![a, m, b]⟩ : Shape).Slices ![0, 0, 0] ⟨3, ![a, n, b]⟩)
    (h0 : (⟨3, ![a, n, b]⟩ : Shape).Reduces [0] ⟨2, ![n, b]⟩) (h1 : (⟨2, ![n, b]⟩ : Shape).Reduces [1] ⟨1, ![n]⟩)
    (hφ hφ' : FKind.Formats .f32) (hacc : (0x00000000#32 : BitVec 32) = FKind.add.neutral .f32 hφ)
    (hacc' : (0x00000000#32 : BitVec 32) = FKind.add.neutral .f32 hφ')
    (hc1 : (⟨1, ![n]⟩ : Shape).ShapeCasts ⟨3, ![1, 1, n]⟩) (u0 u1 : Fin 1) (p : Fin n) :
    shapeCast ⟨3, ![1, 1, n]⟩
      (multiReduction .add [1] ⟨1, ![n]⟩
        (multiReduction .add [0] ⟨2, ![n, b]⟩
          (mulf (subf (extractStridedSlice ⟨3, ![a, n, b]⟩ ![0, 1, 0] (shapeCast ⟨3, ![a, m, b]⟩ v hc5) hs1)
                      (extractStridedSlice ⟨3, ![a, n, b]⟩ ![0, 0, 0] (shapeCast ⟨3, ![a, m, b]⟩ v hc5) hs0))
                (subf (extractStridedSlice ⟨3, ![a, n, b]⟩ ![0, 1, 0] (shapeCast ⟨3, ![a, m, b]⟩ v hc5) hs1)
                      (extractStridedSlice ⟨3, ![a, n, b]⟩ ![0, 0, 0] (shapeCast ⟨3, ![a, m, b]⟩ v hc5) hs0)))
          0x00000000#32 h0 hφ hacc) 0x00000000#32 h1 hφ' hacc') hc1 (ix3 u0 u1 p)
    = ∑ l : Fin b, ∑ k : Fin a,
        (v (ix5 0 0 k ⟨p.val + 1, by have := p.isLt; omega⟩ l) - v (ix5 0 0 k ⟨p.val, by have := p.isLt; omega⟩ l))
          * (v (ix5 0 0 k ⟨p.val + 1, by have := p.isLt; omega⟩ l) - v (ix5 0 0 k ⟨p.val, by have := p.isLt; omega⟩ l)) := by
  refine (cast1_3 _ hc1 u0 u1 p).trans ?_
  refine (adj1 hm _ hs1 hs0 h0 h1 hφ hφ' hacc hacc' p).trans ?_
  refine Finset.sum_congr rfl fun l _ => Finset.sum_congr rfl fun k _ => ?_
  rw [cast5_3, cast5_3]

/-- Slab [1, 1, a, b, m] cut along its fifth axis. -/
theorem chain2 {m n a b : Nat} (hm : n + 1 ≤ m) (v : FVec Ideal ⟨5, ![1, 1, a, b, m]⟩ .f32)
    (hc5 : (⟨5, ![1, 1, a, b, m]⟩ : Shape).ShapeCasts ⟨3, ![a, b, m]⟩)
    (hs1 : (⟨3, ![a, b, m]⟩ : Shape).Slices ![0, 0, 1] ⟨3, ![a, b, n]⟩)
    (hs0 : (⟨3, ![a, b, m]⟩ : Shape).Slices ![0, 0, 0] ⟨3, ![a, b, n]⟩)
    (h0 : (⟨3, ![a, b, n]⟩ : Shape).Reduces [0] ⟨2, ![b, n]⟩) (h0' : (⟨2, ![b, n]⟩ : Shape).Reduces [0] ⟨1, ![n]⟩)
    (hφ hφ' : FKind.Formats .f32) (hacc : (0x00000000#32 : BitVec 32) = FKind.add.neutral .f32 hφ)
    (hacc' : (0x00000000#32 : BitVec 32) = FKind.add.neutral .f32 hφ')
    (hc1 : (⟨1, ![n]⟩ : Shape).ShapeCasts ⟨3, ![1, 1, n]⟩) (u0 u1 : Fin 1) (p : Fin n) :
    shapeCast ⟨3, ![1, 1, n]⟩
      (multiReduction .add [0] ⟨1, ![n]⟩
        (multiReduction .add [0] ⟨2, ![b, n]⟩
          (mulf (subf (extractStridedSlice ⟨3, ![a, b, n]⟩ ![0, 0, 1] (shapeCast ⟨3, ![a, b, m]⟩ v hc5) hs1)
                      (extractStridedSlice ⟨3, ![a, b, n]⟩ ![0, 0, 0] (shapeCast ⟨3, ![a, b, m]⟩ v hc5) hs0))
                (subf (extractStridedSlice ⟨3, ![a, b, n]⟩ ![0, 0, 1] (shapeCast ⟨3, ![a, b, m]⟩ v hc5) hs1)
                      (extractStridedSlice ⟨3, ![a, b, n]⟩ ![0, 0, 0] (shapeCast ⟨3, ![a, b, m]⟩ v hc5) hs0)))
          0x00000000#32 h0 hφ hacc) 0x00000000#32 h0' hφ' hacc') hc1 (ix3 u0 u1 p)
    = ∑ l : Fin b, ∑ k : Fin a,
        (v (ix5 0 0 k l ⟨p.val + 1, by have := p.isLt; omega⟩) - v (ix5 0 0 k l ⟨p.val, by have := p.isLt; omega⟩))
          * (v (ix5 0 0 k l ⟨p.val + 1, by have := p.isLt; omega⟩) - v (ix5 0 0 k l ⟨p.val, by have := p.isLt; omega⟩)) := by
  refine (cast1_3 _ hc1 u0 u1 p).trans ?_
  refine (adj2 hm _ hs1 hs0 h0 h0' hφ hφ' hacc hacc' p).trans ?_
  refine Finset.sum_congr rfl fun l _ => Finset.sum_congr rfl fun k _ => ?_
  rw [cast5_3, cast5_3]

end AdjacentSquares

end
-- ==== Proof.Pieces.lean ====
/-
  What each store of the tiled body holds, read at an index of the output block.

  The body fills the block [1, 3, 160] of one batch by thirty stores of 16 or 15 consecutive entries of one
  row and one store of the last column.  A store of row a at offset o holds, at place p, the squared distance
  between slices o+p and o+p+1 of the batch's cube along axis a: the loaded slab of 17 (or 16) slices starting at
  slice o gives the 16 (or 15) adjacent differences, which are squared and added over the two other axes.  So
  every piece is a block of one function of the output index, the batch's three rows (`SliceRbf.blockTable`);
  the last column holds the zero word.
-/
import proofs.«102135_j60833916780584_2_alg».proof.Proof.Gen.KernelIdeal.Skeleton
import proofs.«102135_j60833916780584_2_alg».proof.Proof.Spec
import proofs.«102135_j60833916780584_2_alg».proof.Proof.LibAdjacentSquares
import Idealize.ShloMosaic.Lib.Pipeline.Value

set_option maxRecDepth 16384

noncomputable section

namespace Cert.KernelIdeal.Pieces

open Cert.KernelIdeal Cert.KernelIdeal.Gen Idealize.ShloMosaic Idealize.ShloMosaic.ValueIdx SliceRbf AdjacentSquares

/-- The cube a loaded block [1, 1, 160, 160, 160] holds. -/
def blockCube (x0 : Vec Ideal S1x1x160x160x160 .f32) : Cube := fun d h w => x0 (ix5 0 0 d h w)

/-! ## A slab's payload at place p: the double sum of squared differences of slices p+1 and p -/

theorem pay_d16 (v : Vec Ideal S1x1x17x160x160 .f32) (u0 u1 : Fin 1) (p : Fin 16) :
    k0_pay2 v (ix3 u0 u1 p) = ∑ k : Fin 160, ∑ l : Fin 160,
        (v (ix5 0 0 ⟨p.val + 1, by have := p.isLt; omega⟩ k l) - v (ix5 0 0 ⟨p.val, by have := p.isLt; omega⟩ k l))
          * (v (ix5 0 0 ⟨p.val + 1, by have := p.isLt; omega⟩ k l) - v (ix5 0 0 ⟨p.val, by have := p.isLt; omega⟩ k l)) :=
  chain0 (m := 17) (n := 16) (a := 160) (b := 160) (by decide) v _ _ _ _ _ _ _ _ _ _ u0 u1 p

theorem pay_d15 (v : Vec Ideal S1x1x16x160x160 .f32) (u0 u1 : Fin 1) (p : Fin 15) :
    k0_pay15 v (ix3 u0 u1 p) = ∑ k : Fin 160, ∑ l : Fin 160,
        (v (ix5 0 0 ⟨p.val + 1, by have := p.isLt; omega⟩ k l) - v (ix5 0 0 ⟨p.val, by have := p.isLt; omega⟩ k l))
          * (v (ix5 0 0 ⟨p.val + 1, by have := p.isLt; omega⟩ k l) - v (ix5 0 0 ⟨p.val, by have := p.isLt; omega⟩ k l)) :=
  chain0 (m := 16) (n := 15) (a := 160) (b := 160) (by decide) v _ _ _ _ _ _ _ _ _ _ u0 u1 p

theorem pay_h16 (v : Vec Ideal S1x1x160x17x160 .f32) (u0 u1 : Fin 1) (p : Fin 16) :
    k0_pay18 v (ix3 u0 u1 p) = ∑ l : Fin 160, ∑ k : Fin 160,
        (v (ix5 0 0 k ⟨p.val + 1, by have := p.isLt; omega⟩ l) - v (ix5 0 0 k ⟨p.val, by have := p.isLt; omega⟩ l))
          * (v (ix5 0 0 k ⟨p.val + 1, by have := p.isLt; omega⟩ l) - v (ix5 0 0 k ⟨p.val, by have := p.isLt; omega⟩ l)) :=
  chain1 (m := 17) (n := 16) (a := 160) (b := 160) (by decide) v _ _ _ _ _ _ _ _ _ _ u0 u1 p

theorem pay_h15 (v : Vec Ideal S1x1x160x16x160 .f32) (u0 u1 : Fin 1) (p : Fin 15) :
    k0_pay28 v (ix3 u0 u1 p) = ∑ l : Fin 160, ∑ k : Fin 160,
        (v (ix5 0 0 k ⟨p.val + 1, by have := p.isLt; omega⟩ l) - v (ix5 0 0 k ⟨p.val, by have := p.isLt; omega⟩ l))
          * (v (ix5 0 0 k ⟨p.val + 1, by have := p.isLt; omega⟩ l) - v (ix5 0 0 k ⟨p.val, by have := p.isLt; omega⟩ l)) :=
  chain1 (m := 16) (n := 15) (a := 160) (b := 160) (by decide) v _ _ _ _ _ _ _ _ _ _ u0 u1 p

theorem pay_w16 (v : Vec Ideal S1x1x160x160x17 .f32) (u0 u1 : Fin 1) (p : Fin 16) :
    k0_pay29 v (ix3 u0 u1 p) = ∑ l : Fin 160, ∑ k : Fin 160,
        (v (ix5 0 0 k l ⟨p.val + 1, by have := p.isLt; omega⟩) - v (ix5 0 0 k l ⟨p.val, by have := p.isLt; omega⟩))
          * (v (ix5 0 0 k l ⟨p.val + 1, by have := p.isLt; omega⟩) - v (ix5 0 0 k l ⟨p.val, by have := p.isLt; omega⟩)) :=
  chain2 (m := 17) (n := 16) (a := 160) (b := 160) (by decide) v _ _ _ _ _ _ _ _ _ _ u0 u1 p

theorem pay_w15 (v : Vec Ideal S1x1x160x160x16 .f32) (u0 u1 : Fin 1) (p : Fin 15) :
    k0_pay40 v (ix3 u0 u1 p) = ∑ l : Fin 160, ∑ k : Fin 160,
        (v (ix5 0 0 k l ⟨p.val + 1, by have := p.isLt; omega⟩) - v (ix5 0 0 k l ⟨p.val, by have := p.isLt; omega⟩))
          * (v (ix5 0 0 k l ⟨p.val + 1, by have := p.isLt; omega⟩) - v (ix5 0 0 k l ⟨p.val, by have := p.isLt; omega⟩)) :=
  chain2 (m := 16) (n := 15) (a := 160) (b := 160) (by decide) v _ _ _ _ _ _ _ _ _ _ u0 u1 p

/-! ## A piece is a block of the batch's three rows -/

theorem piece_d16 (x0 : Vec Ideal S1x1x160x160x160 .f32) (o : Nat) (ho : o + 17 ≤ 160)
    (inb : ∀ a, (![0, 0, o, 0, 0] : Fin 5 → Nat) a + (![1, 1, 17, 160, 160] : Fin 5 → Nat) a ≤ S1x1x160x160x160.size a)
    (inbO : ∀ a, (![0, 0, o] : Fin 3 → Nat) a + (![1, 1, 16] : Fin 3 → Nat) a ≤ S1x3x160.size a)
    (x : S1x1x16.Idx) :
    k0_pay2 (View.ld x0 (Rect.unit (s := S1x1x160x160x160) ![0, 0, o, 0, 0] ![1, 1, 17, 160, 160] inb)) x
      = blockTable (blockCube x0) ((Rect.unit (s := S1x3x160) ![0, 0, o] ![1, 1, 16] inbO).emb x) := by
  obtain ⟨u0, u1, p, rfl⟩ : ∃ (u0 u1 : Fin 1) (p : Fin 16), x = ix3 u0 u1 p := ⟨x 0, x 1, x 2, eq_ix3 x⟩
  rw [pay_d16]
  have hp := p.isLt
  show _ = row (blockCube x0) (0 + 1 * u1.val) (o + 1 * p.val)
  have hu1 : u1.val = 0 := by have := u1.isLt; omega
  rw [show 0 + 1 * u1.val = ((0 : Fin 3) : Nat) from by rw [hu1]; rfl,
    show o + 1 * p.val = ((⟨o + p.val, by omega⟩ : Fin 159) : Nat) from by simp,
    row_of_lt, sqAx_zero]
  unfold sqD
  refine Finset.sum_congr rfl fun k _ => Finset.sum_congr rfl fun l _ => ?_
  have e1 : View.ld x0 (Rect.unit (s := S1x1x160x160x160) ![0, 0, o, 0, 0] ![1, 1, 17, 160, 160] inb)
      (ix5 0 0 ⟨p.val + 1, by omega⟩ k l) = blockCube x0 (up ⟨o + p.val, by omega⟩) k l :=
    congrArg x0 (funext fun a => Fin.ext (by
      match a with
      | ⟨0, _⟩ => rfl
      | ⟨1, _⟩ => rfl
      | ⟨2, _⟩ => show o + 1 * (p.val + 1) = o + p.val + 1; omega
      | ⟨3, _⟩ => show 0 + 1 * k.val = k.val; omega
      | ⟨4, _⟩ => show 0 + 1 * l.val = l.val; omega))
  have e0 : View.ld x0 (Rect.unit (s := S1x1x160x160x160) ![0, 0, o, 0, 0] ![1, 1, 17, 160, 160] inb)
      (ix5 0 0 ⟨p.val, by omega⟩ k l) = blockCube x0 (lo ⟨o + p.val, by omega⟩) k l :=
    congrArg x0 (funext fun a => Fin.ext (by
      match a with
      | ⟨0, _⟩ => rfl
      | ⟨1, _⟩ => rfl
      | ⟨2, _⟩ => show o + 1 * p.val = o + p.val; omega
      | ⟨3, _⟩ => show 0 + 1 * k.val = k.val; omega
      | ⟨4, _⟩ => show 0 + 1 * l.val = l.val; omega))
  rw [e1, e0]

theorem piece_d15 (x0 : Vec Ideal S1x1x160x160x160 .f32) (o : Nat) (ho : o + 16 ≤ 160)
    (inb : ∀ a, (![0, 0, o, 0, 0] : Fin 5 → Nat) a + (![1, 1, 16, 160, 160] : Fin 5 → Nat) a ≤ S1x1x160x160x160.size a)
    (inbO : ∀ a, (![0, 0, o] : Fin 3 → Nat) a + (![1, 1, 15] : Fin 3 → Nat) a ≤ S1x3x160.size a)
    (x : S1x1x15.Idx) :
    k0_pay15 (View.ld x0 (Rect.unit (s := S1x1x160x160x160) ![0, 0, o, 0, 0] ![1, 1, 16, 160, 160] inb)) x
      = blockTable (blockCube x0) ((Rect.unit (s := S1x3x160) ![0, 0, o] ![1, 1, 15] inbO).emb x) := by
  obtain ⟨u0, u1, p, rfl⟩ : ∃ (u0 u1 : Fin 1) (p : Fin 15), x = ix3 u0 u1 p := ⟨x 0, x 1, x 2, eq_ix3 x⟩
  rw [pay_d15]
  have hp := p.isLt
  show _ = row (blockCube x0) (0 + 1 * u1.val) (o + 1 * p.val)
  have hu1 : u1.val = 0 := by have := u1.isLt; omega
  rw [show 0 + 1 * u1.val = ((0 : Fin 3) : Nat) from by rw [hu1]; rfl,
    show o + 1 * p.val = ((⟨o + p.val, by omega⟩ : Fin 159) : Nat) from by simp,
    row_of_lt, sqAx_zero]
  unfold sqD
  refine Finset.sum_congr rfl fun k _ => Finset.sum_congr rfl fun l _ => ?_
  have e1 : View.ld x0 (Rect.unit (s := S1x1x160x160x160) ![0, 0, o, 0, 0] ![1, 1, 16, 160, 160] inb)
      (ix5 0 0 ⟨p.val + 1, by omega⟩ k l) = blockCube x0 (up ⟨o + p.val, by omega⟩) k l :=
    congrArg x0 (funext fun a => Fin.ext (by
      match a with
      | ⟨0, _⟩ => rfl
      | ⟨1, _⟩ => rfl
      | ⟨2, _⟩ => show o + 1 * (p.val + 1) = o + p.val + 1; omega
      | ⟨3, _⟩ => show 0 + 1 * k.val = k.val; omega
      | ⟨4, _⟩ => show 0 + 1 * l.val = l.val; omega))
  have e0 : View.ld x0 (Rect.unit (s := S1x1x160x160x160) ![0, 0, o, 0, 0] ![1, 1, 16, 160, 160] inb)
      (ix5 0 0 ⟨p.val, by omega⟩ k l) = blockCube x0 (lo ⟨o + p.val, by omega⟩) k l :=
    congrArg x0 (funext fun a => Fin.ext (by
      match a with
      | ⟨0, _⟩ => rfl
      | ⟨1, _⟩ => rfl
      | ⟨2, _⟩ => show o + 1 * p.val = o + p.val; omega
      | ⟨3, _⟩ => show 0 + 1 * k.val = k.val; omega
      | ⟨4, _⟩ => show 0 + 1 * l.val = l.val; omega))
  rw [e1, e0]

theorem piece_h16 (x0 : Vec Ideal S1x1x160x160x160 .f32) (o : Nat) (ho : o + 17 ≤ 160)
    (inb : ∀ a, (![0, 0, 0, o, 0] : Fin 5 → Nat) a + (![1, 1, 160, 17, 160] : Fin 5 → Nat) a ≤ S1x1x160x160x160.size a)
    (inbO : ∀ a, (![0, 1, o] : Fin 3 → Nat) a + (![1, 1, 16] : Fin 3 → Nat) a ≤ S1x3x160.size a)
    (x : S1x1x16.Idx) :
    k0_pay18 (View.ld x0 (Rect.unit (s := S1x1x160x160x160) ![0, 0, 0, o, 0] ![1, 1, 160, 17, 160] inb)) x
      = blockTable (blockCube x0) ((Rect.unit (s := S1x3x160) ![0, 1, o] ![1, 1, 16] inbO).emb x) := by
  obtain ⟨u0, u1, p, rfl⟩ : ∃ (u0 u1 : Fin 1) (p : Fin 16), x = ix3 u0 u1 p := ⟨x 0, x 1, x 2, eq_ix3 x⟩
  rw [pay_h16]
  have hp := p.isLt
  show _ = row (blockCube x0) (1 + 1 * u1.val) (o + 1 * p.val)
  have hu1 : u1.val = 0 := by have := u1.isLt; omega
  rw [show 1 + 1 * u1.val = ((1 : Fin 3) : Nat) from by rw [hu1]; rfl,
    show o + 1 * p.val = ((⟨o + p.val, by omega⟩ : Fin 159) : Nat) from by simp,
    row_of_lt, sqAx_one]
  unfold sqH
  refine Finset.sum_congr rfl fun l _ => Finset.sum_congr rfl fun k _ => ?_
  have e1 : View.ld x0 (Rect.unit (s := S1x1x160x160x160) ![0, 0, 0, o, 0] ![1, 1, 160, 17, 160] inb)
      (ix5 0 0 k ⟨p.val + 1, by omega⟩ l) = blockCube x0 k (up ⟨o + p.val, by omega⟩) l :=
    congrArg x0 (funext fun a => Fin.ext (by
      match a with
      | ⟨0, _⟩ => rfl
      | ⟨1, _⟩ => rfl
      | ⟨2, _⟩ => show 0 + 1 * k.val = k.val; omega
      | ⟨3, _⟩ => show o + 1 * (p.val + 1) = o + p.val + 1; omega
      | ⟨4, _⟩ => show 0 + 1 * l.val = l.val; omega))
  have e0 : View.ld x0 (Rect.unit (s := S1x1x160x160x160) ![0, 0, 0, o, 0] ![1, 1, 160, 17, 160] inb)
      (ix5 0 0 k ⟨p.val, by omega⟩ l) = blockCube x0 k (lo ⟨o + p.val, by omega⟩) l :=
    congrArg x0 (funext fun a => Fin.ext (by
      match a with
      | ⟨0, _⟩ => rfl
      | ⟨1, _⟩ => rfl
      | ⟨2, _⟩ => show 0 + 1 * k.val = k.val; omega
      | ⟨3, _⟩ => show o + 1 * p.val = o + p.val; omega
      | ⟨4, _⟩ => show 0 + 1 * l.val = l.val; omega))
  rw [e1, e0]

theorem piece_h15 (x0 : Vec Ideal S1x1x160x160x160 .f32) (o : Nat) (ho : o + 16 ≤ 160)
    (inb : ∀ a, (![0, 0, 0, o, 0] : Fin 5 → Nat) a + (![1, 1, 160, 16, 160] : Fin 5 → Nat) a ≤ S1x1x160x160x160.size a)
    (inbO : ∀ a, (![0, 1, o] : Fin 3 → Nat) a + (![1, 1, 15] : Fin 3 → Nat) a ≤ S1x3x160.size a)
    (x : S1x1x15.Idx) :
    k0_pay28 (View.ld x0 (Rect.unit (s := S1x1x160x160x160) ![0, 0, 0, o, 0] ![1, 1, 160, 16, 160] inb)) x
      = blockTable (blockCube x0) ((Rect.unit (s := S1x3x160) ![0, 1, o] ![1, 1, 15] inbO).emb x) := by
  obtain ⟨u0, u1, p, rfl⟩ : ∃ (u0 u1 : Fin 1) (p : Fin 15), x = ix3 u0 u1 p := ⟨x 0, x 1, x 2, eq_ix3 x⟩
  rw [pay_h15]
  have hp := p.isLt
  show _ = row (blockCube x0) (1 + 1 * u1.val) (o + 1 * p.val)
  have hu1 : u1.val = 0 := by have := u1.isLt; omega
  rw [show 1 + 1 * u1.val = ((1 : Fin 3) : Nat) from by rw [hu1]; rfl,
    show o + 1 * p.val = ((⟨o + p.val, by omega⟩ : Fin 159) : Nat) from by simp,
    row_of_lt, sqAx_one]
  unfold sqH
  refine Finset.sum_congr rfl fun l _ => Finset.sum_congr rfl fun k _ => ?_
  have e1 : View.ld x0 (Rect.unit (s := S1x1x160x160x160) ![0, 0, 0, o, 0] ![1, 1, 160, 16, 160] inb)
      (ix5 0 0 k ⟨p.val + 1, by omega⟩ l) = blockCube x0 k (up ⟨o + p.val, by omega⟩) l :=
    congrArg x0 (funext fun a => Fin.ext (by
      match a with
      | ⟨0, _⟩ => rfl
      | ⟨1, _⟩ => rfl
      | ⟨2, _⟩ => show 0 + 1 * k.val = k.val; omega
      | ⟨3, _⟩ => show o + 1 * (p.val + 1) = o + p.val + 1; omega
      | ⟨4, _⟩ => show 0 + 1 * l.val = l.val; omega))
  have e0 : View.ld x0 (Rect.unit (s := S1x1x160x160x160) ![0, 0, 0, o, 0] ![1, 1, 160, 16, 160] inb)
      (ix5 0 0 k ⟨p.val, by omega⟩ l) = blockCube x0 k (lo ⟨o + p.val, by omega⟩) l :=
    congrArg x0 (funext fun a => Fin.ext (by
      match a with
      | ⟨0, _⟩ => rfl
      | ⟨1, _⟩ => rfl
      | ⟨2, _⟩ => show 0 + 1 * k.val = k.val; omega
      | ⟨3, _⟩ => show o + 1 * p.val = o + p.val; omega
      | ⟨4, _⟩ => show 0 + 1 * l.val = l.val; omega))
  rw [e1, e0]

theorem piece_w16 (x0 : Vec Ideal S1x1x160x160x160 .f32) (o : Nat) (ho : o + 17 ≤ 160)
    (inb : ∀ a, (![0, 0, 0, 0, o] : Fin 5 → Nat) a + (![1, 1, 160, 160, 17] : Fin 5 → Nat) a ≤ S1x1x160x160x160.size a)
    (inbO : ∀ a, (![0, 2, o] : Fin 3 → Nat) a + (![1, 1, 16] : Fin 3 → Nat) a ≤ S1x3x160.size a)
    (x : S1x1x16.Idx) :
    k0_pay29 (View.ld x0 (Rect.unit (s := S1x1x160x160x160) ![0, 0, 0, 0, o] ![1, 1, 160, 160, 17] inb)) x
      = blockTable (blockCube x0) ((Rect.unit (s := S1x3x160) ![0, 2, o] ![1, 1, 16] inbO).emb x) := by
  obtain ⟨u0, u1, p, rfl⟩ : ∃ (u0 u1 : Fin 1) (p : Fin 16), x = ix3 u0 u1 p := ⟨x 0, x 1, x 2, eq_ix3 x⟩
  rw [pay_w16]
  have hp := p.isLt
  show _ = row (blockCube x0) (2 + 1 * u1.val) (o + 1 * p.val)
  have hu1 : u1.val = 0 := by have := u1.isLt; omega
  rw [show 2 + 1 * u1.val = ((2 : Fin 3) : Nat) from by rw [hu1]; rfl,
    show o + 1 * p.val = ((⟨o + p.val, by omega⟩ : Fin 159) : Nat) from by simp,
    row_of_lt, sqAx_two]
  unfold sqW
  refine Finset.sum_congr rfl fun l _ => Finset.sum_congr rfl fun k _ => ?_
  have e1 : View.ld x0 (Rect.unit (s := S1x1x160x160x160) ![0, 0, 0, 0, o] ![1, 1, 160, 160, 17] inb)
      (ix5 0 0 k l ⟨p.val + 1, by omega⟩) = blockCube x0 k l (up ⟨o + p.val, by omega⟩) :=
    congrArg x0 (funext fun a => Fin.ext (by
      match a with
      | ⟨0, _⟩ => rfl
      | ⟨1, _⟩ => rfl
      | ⟨2, _⟩ => show 0 + 1 * k.val = k.val; omega
      | ⟨3, _⟩ => show 0 + 1 * l.val = l.val; omega
      | ⟨4, _⟩ => show o + 1 * (p.val + 1) = o + p.val + 1; omega))
  have e0 : View.ld x0 (Rect.unit (s := S1x1x160x160x160) ![0, 0, 0, 0, o] ![1, 1, 160, 160, 17] inb)
      (ix5 0 0 k l ⟨p.val, by omega⟩) = blockCube x0 k l (lo ⟨o + p.val, by omega⟩) :=
    congrArg x0 (funext fun a => Fin.ext (by
      match a with
      | ⟨0, _⟩ => rfl
      | ⟨1, _⟩ => rfl
      | ⟨2, _⟩ => show 0 + 1 * k.val = k.val; omega
      | ⟨3, _⟩ => show 0 + 1 * l.val = l.val; omega
      | ⟨4, _⟩ => show o + 1 * p.val = o + p.val; omega))
  rw [e1, e0]

theorem piece_w15 (x0 : Vec Ideal S1x1x160x160x160 .f32) (o : Nat) (ho : o + 16 ≤ 160)
    (inb : ∀ a, (![0, 0, 0, 0, o] : Fin 5 → Nat) a + (![1, 1, 160, 160, 16] : Fin 5 → Nat) a ≤ S1x1x160x160x160.size a)
    (inbO : ∀ a, (![0, 2, o] : Fin 3 → Nat) a + (![1, 1, 15] : Fin 3 → Nat) a ≤ S1x3x160.size a)
    (x : S1x1x15.Idx) :
    k0_pay40 (View.ld x0 (Rect.unit (s := S1x1x160x160x160) ![0, 0, 0, 0, o] ![1, 1, 160, 160, 16] inb)) x
      = blockTable (blockCube x0) ((Rect.unit (s := S1x3x160) ![0, 2, o] ![1, 1, 15] inbO).emb x) := by
  obtain ⟨u0, u1, p, rfl⟩ : ∃ (u0 u1 : Fin 1) (p : Fin 15), x = ix3 u0 u1 p := ⟨x 0, x 1, x 2, eq_ix3 x⟩
  rw [pay_w15]
  have hp := p.isLt
  show _ = row (blockCube x0) (2 + 1 * u1.val) (o + 1 * p.val)
  have hu1 : u1.val = 0 := by have := u1.isLt; omega
  rw [show 2 + 1 * u1.val = ((2 : Fin 3) : Nat) from by rw [hu1]; rfl,
    show o + 1 * p.val = ((⟨o + p.val, by omega⟩ : Fin 159) : Nat) from by simp,
    row_of_lt, sqAx_two]
  unfold sqW
  refine Finset.sum_congr rfl fun l _ => Finset.sum_congr rfl fun k _ => ?_
  have e1 : View.ld x0 (Rect.unit (s := S1x1x160x160x160) ![0, 0, 0, 0, o] ![1, 1, 160, 160, 16] inb)
      (ix5 0 0 k l ⟨p.val + 1, by omega⟩) = blockCube x0 k l (up ⟨o + p.val, by omega⟩) :=
    congrArg x0 (funext fun a => Fin.ext (by
      match a with
      | ⟨0, _⟩ => rfl
      | ⟨1, _⟩ => rfl
      | ⟨2, _⟩ => show 0 + 1 * k.val = k.val; omega
      | ⟨3, _⟩ => show 0 + 1 * l.val = l.val; omega
      | ⟨4, _⟩ => show o + 1 * (p.val + 1) = o + p.val + 1; omega))
  have e0 : View.ld x0 (Rect.unit (s := S1x1x160x160x160) ![0, 0, 0, 0, o] ![1, 1, 160, 160, 16] inb)
      (ix5 0 0 k l ⟨p.val, by omega⟩) = blockCube x0 k l (lo ⟨o + p.val, by omega⟩) :=
    congrArg x0 (funext fun a => Fin.ext (by
      match a with
      | ⟨0, _⟩ => rfl
      | ⟨1, _⟩ => rfl
      | ⟨2, _⟩ => show 0 + 1 * k.val = k.val; omega
      | ⟨3, _⟩ => show 0 + 1 * l.val = l.val; omega
      | ⟨4, _⟩ => show o + 1 * p.val = o + p.val; omega))
  rw [e1, e0]

/-- The last column: the zero word in each of the three rows. -/
theorem piece_zero (f : Cube)
    (inbO : ∀ a, (![0, 0, 159] : Fin 3 → Nat) a + (![1, 3, 1] : Fin 3 → Nat) a ≤ S1x3x160.size a) (x : S1x3x1.Idx) :
    k0_pay1 (F := Ideal) x = blockTable f ((Rect.unit (s := S1x3x160) ![0, 0, 159] ![1, 3, 1] inbO).emb x) := by
  show _ = row f (0 + 1 * (x 1).val) (159 + 1 * (x 2).val)
  have h2 : (x 2).val = 0 := by have : (x 2).val < 1 := (x 2).isLt; omega
  rw [show 159 + 1 * (x 2).val = 159 from by rw [h2], row_last]
  rfl

end Cert.KernelIdeal.Pieces

end
-- ==== Proof.Block.lean ====
/-
  What one grid point's run of the body leaves in the output block: the batch's three rows.

  The run's stores, read back as a list of pieces, cover the block [1, 3, 160]; each piece is a block of the one
  function `SliceRbf.blockTable` of the loaded cube (module Pieces), so the whole block is that function.
-/
import proofs.«102135_j60833916780584_2_alg».proof.Proof.Gen.KernelIdeal.Frame
import proofs.«102135_j60833916780584_2_alg».proof.Proof.Pieces
import Idealize.ShloMosaic.Lib.Pipeline.Value
import Idealize.ShloMosaic.Lib.Tactic

set_option maxRecDepth 16384

noncomputable section

namespace Cert.KernelIdeal.Block

open Cert.KernelIdeal Cert.KernelIdeal.Gen Cert.KernelIdeal.Pieces Idealize.ShloMosaic Idealize.ShloMosaic.TcCoe
open Idealize.ShloMosaic.ValueIdx Idealize.SL.Sem SliceRbf

theorem block_eq (c : Dev nD) (i : grid0.Coords) (arg1 : Memref sig .tc .vmem S1x1x160x160x160 .f32) (harg1 : arg1.IsWhole)
    (arg2 : Memref sig .tc .vmem S1x3x160 .f32) (harg2 : arg2.IsWhole) (x0 : Vec Ideal S1x1x160x160x160 .f32) :
    out0_A_1 (F := Ideal) c i arg1 harg1 arg2 harg2 x0 = blockTable (blockCube x0) := by
  unfold out0_A_1
  rw [View.read_writes_eq_canon _ _ _ (cover0_A_1 c i arg1 harg1 arg2 harg2 x0)]
  funext y
  refine View.canon_apply_of_pieces (blockTable (blockCube x0)) _ ?_ y (cover0_A_1 c i arg1 harg1 arg2 harg2 x0 y)
  unfold kernelRun0_A
  dsimp only
  sl_unfold_words
  simp only [View.readAt_eq_ld, harg1.read_unread]
  intro q hq
  simp only [List.mem_cons, List.mem_nil_iff, or_false] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => piece_zero (blockCube x0) inb_S1x3x160_S1x3x1_0_0_159 x
  · exact fun x => piece_w15 x0 144 (by decide) inb_S1x1x160x160x160_S1x1x160x160x16_0_0_0_0_144 inb_S1x3x160_S1x1x15_0_2_144 x
  · exact fun x => piece_w16 x0 128 (by decide) inb_S1x1x160x160x160_S1x1x160x160x17_0_0_0_0_128 inb_S1x3x160_S1x1x16_0_2_128 x
  · exact fun x => piece_w16 x0 112 (by decide) inb_S1x1x160x160x160_S1x1x160x160x17_0_0_0_0_112 inb_S1x3x160_S1x1x16_0_2_112 x
  · exact fun x => piece_w16 x0 96 (by decide) inb_S1x1x160x160x160_S1x1x160x160x17_0_0_0_0_96 inb_S1x3x160_S1x1x16_0_2_96 x
  · exact fun x => piece_w16 x0 80 (by decide) inb_S1x1x160x160x160_S1x1x160x160x17_0_0_0_0_80 inb_S1x3x160_S1x1x16_0_2_80 x
  · exact fun x => piece_w16 x0 64 (by decide) inb_S1x1x160x160x160_S1x1x160x160x17_0_0_0_0_64 inb_S1x3x160_S1x1x16_0_2_64 x
  · exact fun x => piece_w16 x0 48 (by decide) inb_S1x1x160x160x160_S1x1x160x160x17_0_0_0_0_48 inb_S1x3x160_S1x1x16_0_2_48 x
  · exact fun x => piece_w16 x0 32 (by decide) inb_S1x1x160x160x160_S1x1x160x160x17_0_0_0_0_32 inb_S1x3x160_S1x1x16_0_2_32 x
  · exact fun x => piece_w16 x0 16 (by decide) inb_S1x1x160x160x160_S1x1x160x160x17_0_0_0_0_16 inb_S1x3x160_S1x1x16_0_2_16 x
  · exact fun x => piece_w16 x0 0 (by decide) inb_S1x1x160x160x160_S1x1x160x160x17_0_0_0_0_0 inb_S1x3x160_S1x1x16_0_2_0 x
  · exact fun x => piece_h15 x0 144 (by decide) inb_S1x1x160x160x160_S1x1x160x16x160_0_0_0_144_0 inb_S1x3x160_S1x1x15_0_1_144 x
  · exact fun x => piece_h16 x0 128 (by decide) inb_S1x1x160x160x160_S1x1x160x17x160_0_0_0_128_0 inb_S1x3x160_S1x1x16_0_1_128 x
  · exact fun x => piece_h16 x0 112 (by decide) inb_S1x1x160x160x160_S1x1x160x17x160_0_0_0_112_0 inb_S1x3x160_S1x1x16_0_1_112 x
  · exact fun x => piece_h16 x0 96 (by decide) inb_S1x1x160x160x160_S1x1x160x17x160_0_0_0_96_0 inb_S1x3x160_S1x1x16_0_1_96 x
  · exact fun x => piece_h16 x0 80 (by decide) inb_S1x1x160x160x160_S1x1x160x17x160_0_0_0_80_0 inb_S1x3x160_S1x1x16_0_1_80 x
  · exact fun x => piece_h16 x0 64 (by decide) inb_S1x1x160x160x160_S1x1x160x17x160_0_0_0_64_0 inb_S1x3x160_S1x1x16_0_1_64 x
  · exact fun x => piece_h16 x0 48 (by decide) inb_S1x1x160x160x160_S1x1x160x17x160_0_0_0_48_0 inb_S1x3x160_S1x1x16_0_1_48 x
  · exact fun x => piece_h16 x0 32 (by decide) inb_S1x1x160x160x160_S1x1x160x17x160_0_0_0_32_0 inb_S1x3x160_S1x1x16_0_1_32 x
  · exact fun x => piece_h16 x0 16 (by decide) inb_S1x1x160x160x160_S1x1x160x17x160_0_0_0_16_0 inb_S1x3x160_S1x1x16_0_1_16 x
  · exact fun x => piece_h16 x0 0 (by decide) inb_S1x1x160x160x160_S1x1x160x17x160_0_0_0_0_0 inb_S1x3x160_S1x1x16_0_1_0 x
  · exact fun x => piece_d15 x0 144 (by decide) inb_S1x1x160x160x160_S1x1x16x160x160_0_0_144_0_0 inb_S1x3x160_S1x1x15_0_0_144 x
  · exact fun x => piece_d16 x0 128 (by decide) inb_S1x1x160x160x160_S1x1x17x160x160_0_0_128_0_0 inb_S1x3x160_S1x1x16_0_0_128 x
  · exact fun x => piece_d16 x0 112 (by decide) inb_S1x1x160x160x160_S1x1x17x160x160_0_0_112_0_0 inb_S1x3x160_S1x1x16_0_0_112 x
  · exact fun x => piece_d16 x0 96 (by decide) inb_S1x1x160x160x160_S1x1x17x160x160_0_0_96_0_0 inb_S1x3x160_S1x1x16_0_0_96 x
  · exact fun x => piece_d16 x0 80 (by decide) inb_S1x1x160x160x160_S1x1x17x160x160_0_0_80_0_0 inb_S1x3x160_S1x1x16_0_0_80 x
  · exact fun x => piece_d16 x0 64 (by decide) inb_S1x1x160x160x160_S1x1x17x160x160_0_0_64_0_0 inb_S1x3x160_S1x1x16_0_0_64 x
  · exact fun x => piece_d16 x0 48 (by decide) inb_S1x1x160x160x160_S1x1x17x160x160_0_0_48_0_0 inb_S1x3x160_S1x1x16_0_0_48 x
  · exact fun x => piece_d16 x0 32 (by decide) inb_S1x1x160x160x160_S1x1x17x160x160_0_0_32_0_0 inb_S1x3x160_S1x1x16_0_0_32 x
  · exact fun x => piece_d16 x0 16 (by decide) inb_S1x1x160x160x160_S1x1x17x160x160_0_0_16_0_0 inb_S1x3x160_S1x1x16_0_0_16 x
  · exact fun x => piece_d16 x0 0 (by decide) inb_S1x1x160x160x160_S1x1x17x160x160_0_0_0_0_0 inb_S1x3x160_S1x1x16_0_0_0 x

end Cert.KernelIdeal.Block

end
-- ==== Proof.TailDef.lean ====
/-
  The lines of the tiled program after the table is filled, as one function of the table T [8, 3, 160] and the
  three log-widths: drop the unused last column, negate, divide row a by (2 * sigma_a) * sigma_a with
  sigma = exp(log-widths), exponentiate, add over batches and slice pairs from zero, divide by 1272, negate, add
  the three shares from zero, divide by 3.
-/
import proofs.«102135_j60833916780584_2_alg».proof.Proof.Gen.KernelIdeal
import Idealize.ShloMosaic.PureOps.Ideal

noncomputable section

namespace Cert.KernelIdeal.Tail

open Cert.KernelIdeal Cert.KernelIdeal.Gen Idealize.ShloMosaic

/-- The table and the log-widths to the scalar result, spelt with the program's own operations. -/
def tail (T : (⟨S8x3x160, .f32⟩ : BufTy).Contents (Elt Ideal)) (ls : (⟨S3, .f32⟩ : BufTy).Contents (Elt Ideal)) :
    (⟨S_, .f32⟩ : BufTy).Contents (Elt Ideal) :=
  Host.divf (F := Ideal)
    (Host.reduceAdd (F := Ideal)
      (Host.negf (F := Ideal)
        (Host.divf (F := Ideal)
          (Host.reduceAdd (F := Ideal)
            (Host.exp (F := Ideal)
              (Host.divf (F := Ideal)
                (Host.negf (F := Ideal) (extractStridedSlice S8x3x159 ![0, 0, 0] T slices_S8x3x160_S8x3x159_0_0_0))
                (broadcastInDim S8x3x159 ![0, 1, 2] bcast_S1x3x1_S8x3x159_0_1_2
                  (shapeCast S1x3x1
                    (mulf (mulf (broadcastInDim S3 ![] bcast_S_S3 (constant (F := Ideal) S_ .f32 0x40000000#32))
                        (Host.exp (F := Ideal) ls)) (Host.exp (F := Ideal) ls))
                    shapeCasts_S3_S1x3x1))))
            (constant (F := Ideal) S_ .f32 0x00000000#32) reducesTo_S8x3x159_S3_d0_2 h_S_)
          (broadcastInDim S3 ![] bcast_S_S3 (constant (F := Ideal) S_ .f32 0x449F0000#32))))
      (constant (F := Ideal) S_ .f32 0x00000000#32) reducesTo_S3_S_d0 h_S_)
    (constant (F := Ideal) S_ .f32 0x40400000#32)

end Cert.KernelIdeal.Tail

end
-- ==== Proof.Final.lean ====
/-
  From the blocks to the array: after the eight grid points the table [8, 3, 160] holds, for batch b, the three
  rows of the cube of batch b.

  Grid point t loads block t of the volume — the cube of batch t — and writes back block t of the table; the
  eight blocks tile the table, so the table ends as `SliceRbf.table` of the volume.
-/
import proofs.«102135_j60833916780584_2_alg».proof.Proof.Gen.KernelIdeal.Frame
import proofs.«102135_j60833916780584_2_alg».proof.Proof.Block
import proofs.«102135_j60833916780584_2_alg».proof.Proof.TailDef
import Idealize.ShloMosaic.Lib.Pipeline.Value
import Idealize.ShloMosaic.Lib.StableHlo.Run
import Idealize.ShloMosaic.Lib.Tactic

set_option maxRecDepth 16384

noncomputable section

namespace Cert.KernelIdeal.Final

open Cert.KernelIdeal Cert.KernelIdeal.Gen Cert.KernelIdeal.Pieces Cert.KernelIdeal.Block
open Idealize.ShloMosaic Idealize.ShloMosaic.TcCoe Idealize.ShloMosaic.ValueIdx Idealize.SL.Sem SliceRbf
open Idealize.ShloMosaic.Pipeline (Dat)

variable (m : (ℓ : Loc nD τ sig) → Buf (Elt Ideal) ℓ) (ρ : Dev nD → PrngReg)

/-- The two index maps, decided over the grid: point t takes block t along the batch axis, block 0 elsewhere. -/
theorem idx_facts : ∀ t : Fin cfg0.N, win0_0.index t (0 : Fin 5) = t.val ∧ win0_0.index t (1 : Fin 5) = 0
    ∧ win0_0.index t (2 : Fin 5) = 0 ∧ win0_0.index t (3 : Fin 5) = 0 ∧ win0_0.index t (4 : Fin 5) = 0
    ∧ win0_1.index t (0 : Fin 3) = t.val ∧ win0_1.index t (1 : Fin 3) = 0 ∧ win0_1.index t (2 : Fin 3) = 0 :=
  (by decide +kernel : ∀ t : Fin grid0.N, _)

theorem flushed_eq (c : Dev nD) (t : Fin cfg0.N) :
    (dats m 0 c).flushed 1 t = ((cfg0.win 1).blk t).view.read (Elt Ideal) (table (V m c main_arg0)) := by
  show (cfg0.win 1).cut (grid0.coords t) ((dats m 0 c).after 1 t) = _
  rw [after0_1]
  have hb := block_eq c (grid0.coords t) (ms0_0 t) (hs0_0 t) (ms0_1 t) (hs0_1 t) (iblk m c 0 t)
  show (cfg0.win 1).cut (grid0.coords t) (out0_A_1 c (grid0.coords t) (ms0_0 t) (hs0_0 t) (ms0_1 t) (hs0_1 t) (iblk m c 0 t)) = _
  rw [hb]
  obtain ⟨e0, e1, e2, e3, e4, f0, f1, f2⟩ := idx_facts t
  have hN : cfg0.N = 8 := N_0
  have ht : t.val < 8 := by have := t.isLt; omega
  -- the loaded block is the cube of batch t
  have hcube : blockCube (iblk m c 0 t) = cube (V m c main_arg0) ⟨t.val, ht⟩ := by
    funext d h w
    unfold blockCube cube iblk
    rw [View.read_apply]
    show V m c main_arg0 (((cfg0.win 0).blk t).view.emb (ix5 0 0 d h w)) = V m c main_arg0 (ix5 ⟨t.val, ht⟩ 0 d h w)
    refine congrArg (V m c main_arg0) (funext fun a => Fin.ext ?_)
    match a with
    | ⟨0, _⟩ => show win0_0.index t (0 : Fin 5) * 1 + 1 * 0 = t.val; rw [e0]; omega
    | ⟨1, _⟩ => show win0_0.index t (1 : Fin 5) * 1 + 1 * 0 = 0; rw [e1]
    | ⟨2, _⟩ => show win0_0.index t (2 : Fin 5) * 160 + 1 * d.val = d.val; rw [e2]; omega
    | ⟨3, _⟩ => show win0_0.index t (3 : Fin 5) * 160 + 1 * h.val = h.val; rw [e3]; omega
    | ⟨4, _⟩ => show win0_0.index t (4 : Fin 5) * 160 + 1 * w.val = w.val; rw [e4]; omega
  rw [hcube]
  funext j
  show blockTable (cube (V m c main_arg0) ⟨t.val, ht⟩) j = table (V m c main_arg0) (((cfg0.win 1).blk t).view.emb j)
  have h0 : ((((cfg0.win 1).blk t).view.emb j) 0).val = t.val := by
    show win0_1.index t (0 : Fin 3) * 1 + 1 * (j 0).val = t.val
    have : (j 0).val < 1 := (j 0).isLt
    rw [f0]; omega
  have h1 : ((((cfg0.win 1).blk t).view.emb j) 1).val = (j 1).val := by
    show win0_1.index t (1 : Fin 3) * 3 + 1 * (j 1).val = (j 1).val
    rw [f1]; omega
  have h2 : ((((cfg0.win 1).blk t).view.emb j) 2).val = (j 2).val := by
    show win0_1.index t (2 : Fin 3) * 160 + 1 * (j 2).val = (j 2).val
    rw [f2]; omega
  unfold blockTable table
  rw [h1, h2]
  exact congrArg (fun b => row (cube (V m c main_arg0) b) (j 1).val (j 2).val) (Fin.ext h0.symm)

/-- An index of the table is in point t's block iff each coordinate is in the block's range on its axis. -/
theorem mem_blk (t : Fin cfg0.N) (i : S8x3x160.Idx) :
    i ∈ ((cfg0.win 1).blk t).view.set ↔ ∀ a : Fin 3, win0_1.index t a * S1x3x160.size a ≤ (i a).val
      ∧ (i a).val < win0_1.index t a * S1x3x160.size a + S1x3x160.size a := by
  show i ∈ ((View.whole main_v0).slice (win0_1.rect t)).set ↔ _
  rw [View.set_slice_whole, Rect.mem_set_unit]
  exact Iff.rfl

/-- The table after the run: entry (b, a, s) is in the block of point b, so the whole table is `table` of the volume. -/
theorem final (c : Dev nD) : (dats m 0 c).arrAt 1 cfg0.N = table (m ((c : Thread nD τ).loc main_arg0)) :=
  (dats m 0 c).arrAt_eq_of_cover 1 (table (m ((c : Thread nD τ).loc main_arg0))) (fun t _ => flushed_eq m c t) fun i => by
    have hN : cfg0.N = 8 := N_0
    have hi0 : (i 0).val < 8 := (i 0).isLt
    have hi1 : (i 1).val < 3 := (i 1).isLt
    have hi2 : (i 2).val < 160 := (i 2).isLt
    refine ⟨⟨(i 0).val, by omega⟩, flush0_1 _, ?_⟩
    obtain ⟨-, -, -, -, -, f0, f1, f2⟩ := idx_facts ⟨(i 0).val, by omega⟩
    rw [mem_blk]
    intro a
    match a with
    | ⟨0, _⟩ =>
      show win0_1.index ⟨(i 0).val, _⟩ (0 : Fin 3) * 1 ≤ (i 0).val ∧ (i 0).val < win0_1.index ⟨(i 0).val, _⟩ (0 : Fin 3) * 1 + 1
      rw [f0]; show (i 0).val * 1 ≤ (i 0).val ∧ (i 0).val < (i 0).val * 1 + 1; omega
    | ⟨1, _⟩ =>
      show win0_1.index ⟨(i 0).val, _⟩ (1 : Fin 3) * 3 ≤ (i 1).val ∧ (i 1).val < win0_1.index ⟨(i 0).val, _⟩ (1 : Fin 3) * 3 + 3
      rw [f1]; omega
    | ⟨2, _⟩ =>
      show win0_1.index ⟨(i 0).val, _⟩ (2 : Fin 3) * 160 ≤ (i 2).val ∧ (i 2).val < win0_1.index ⟨(i 0).val, _⟩ (2 : Fin 3) * 160 + 160
      rw [f2]; omega

/-- The lines after the region, run on the table the region left and the untouched log-widths: the result buffer
    ends at `Tail.tail` of the two. -/
theorem tail_run (c : Dev nD) :
    Pipeline.afterTail₀ cfgs (dats m) 0 (V0 m) [hostOps1] c main_v16
      = Tail.tail ((dats m 0 c).arrAt 1 cfg0.N) (m ((c : Thread nD τ).loc main_arg1)) := by
  unfold Pipeline.afterTail₀
  show StableHlo.after hostOps1 _ (Proc.devRef .tc main_v16) = _
  after_results
  have hT : Pipeline.withArrays (cfgs 0).spec c (V0 m c) (fun w => (dats m 0 c).arrAt w (cfgs 0).N) (Proc.devRef .tc main_v0)
      = (dats m 0 c).arrAt 1 cfg0.N := Pipeline.withArrays_arr spec0 launch0.win.arr_inj c _ _ 1
  have hL : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  show Tail.tail (Pipeline.withArrays (cfgs 0).spec c (V0 m c) (fun w => (dats m 0 c).arrAt w (cfgs 0).N) (Proc.devRef .tc main_v0))
      (Pipeline.withArrays (cfgs 0).spec c (V0 m c) (fun w => (dats m 0 c).arrAt w (cfgs 0).N) (Proc.devRef .tc main_arg1)) = _
  rw [hT, hL]

set_option backward.isDefEq.respectTransparency.types false in
/-- The tiled program's run, read: the result is the closing lines applied to the table of the volume and the
    log-widths; the two arguments end as they began. -/
theorem kernel_run : θ_run defs (onTc (τ := τ) (main (F := Ideal))) ⟨m, fun _ => 0, ρ⟩ (fun r => ∀ c : Dev nD,
      r.2.mem ((c.tc : Thread nD τ).loc main_v16)
        = Tail.tail (table (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v16 (Pipeline.mem_restRefs_of main_v16 (by decide) (by decide))).trans
        ((tail_run m c).trans (by rw [final])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Final

end
-- ==== Proof.RefValue.lean ====
/-
  The reference program's result is the specification's `result`.

  For each of the three spatial axes the reference takes the difference of adjacent slices along the axis, squares
  it, and adds the squares over the channel axis (one point) and the two other spatial axes in one sum over three
  axes; at the pair (b, s) that sum runs over the fibre of (b, s) under the map forgetting the three summed
  coordinates, and regrouping the fibre by its two free coordinates gives the nested sums of `sqD`, `sqH`, `sqW`
  (a bijection of finite index sets on the commutative monoid of extended reals: nothing is assumed finite).
  Each width is one entry of exp(log_sigma) recast as a scalar.  The rest is read operation by operation: negate,
  divide by twice the squared width, exponentiate, add the 8 × 159 kernels from the zero word, divide by the count,
  negate, add the three shares from the zero word first to last, divide by 3 — the specification spells the same
  operations in the same order, so no algebra is left.
-/
import proofs.«102135_j60833916780584_2_alg».proof.Proof.Spec
import proofs.«102135_j60833916780584_2_alg».proof.Proof.Gen.ReferenceIdeal.Read
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.RefValue

open Cert.ReferenceIdeal.Read

/-! ## Regrouping a finite sum over a fibre

A host sum over several axes adds, at a result index `j`, the operand over the fibre of `j` under the map that
forgets the summed coordinates.  When the fibre is parametrised by `κ` (a point of the fibre for every `k`, every
point of the fibre hit exactly once) the sum over the fibre is the sum over `κ`. -/

theorem sum_fibre_eq_sum {ι τ κ M : Type*} [Fintype ι] [Fintype κ] [AddCommMonoid M]
    (drop : ι → τ) (j : τ) [DecidablePred fun i => drop i = j] (lift : κ → ι) (proj : ι → κ)
    (h1 : ∀ k, drop (lift k) = j) (h2 : ∀ i, drop i = j → lift (proj i) = i) (h3 : ∀ k, proj (lift k) = k)
    (f : ι → M) :
    ∑ i ∈ Finset.univ.filter (fun i => drop i = j), f i = ∑ k, f (lift k) := by
  refine Finset.sum_nbij' proj lift ?_ ?_ ?_ ?_ ?_
  · intro a _; exact Finset.mem_univ _
  · intro k _; exact Finset.mem_filter.2 ⟨Finset.mem_univ _, h1 k⟩
  · intro a ha; exact h2 a (Finset.mem_filter.1 ha).2
  · intro k _; exact h3 k
  · intro a ha; rw [h2 a (Finset.mem_filter.1 ha).2]

/-! ## The three sums over three axes, read at (b, s)

Each keeps the batch axis and the axis of the slice pairs and sums the channel axis (one point) and the two other
spatial axes: at (b, s) the fibre is the 160 × 160 points with batch b and slice pair s, and the sum over it is the
nested sum over the two free coordinates, outer coordinate first. -/

/-- Slice pairs along the first spatial axis: the free coordinates are (h, w). -/
theorem reduceD (hr : S8x1x159x160x160.ReducesTo [1, 3, 4] S8x159) (y : S8x1x159x160x160.Idx → EReal) (init : EReal)
    (b : Fin 8) (s : Fin 159) :
    Ideal.hostReduceAdd hr y init (ix2 b s) = init + ∑ h : Fin 160, ∑ w : Fin 160, y (ix5 b (0 : Fin 1) s h w) := by
  unfold Ideal.hostReduceAdd
  congr 1
  rw [sum_fibre_eq_sum hr.drop (ix2 b s) (fun p : Fin 160 × Fin 160 => ix5 b (0 : Fin 1) s p.1 p.2)
    (fun i => (⟨(i 3).val, (i 3).isLt⟩, ⟨(i 4).val, (i 4).isLt⟩)) ?_ ?_ ?_ y, Fintype.sum_prod_type]
  · intro p
    funext a
    refine Fin.ext ?_
    match a with
    | ⟨0, _⟩ => exact hr.drop_apply_val_of_eq _ 0 0
    | ⟨1, _⟩ => exact hr.drop_apply_val_of_eq _ 1 2
  · intro i hi
    have h0 : (b : Nat) = i 0 :=
      (congrArg (fun j : S8x159.Idx => (j 0 : Nat)) hi).symm.trans (hr.drop_apply_val_of_eq i 0 0)
    have h2 : (s : Nat) = i 2 :=
      (congrArg (fun j : S8x159.Idx => (j 1 : Nat)) hi).symm.trans (hr.drop_apply_val_of_eq i 1 2)
    have h1 : (i 1 : Nat) < 1 := (i 1).isLt
    funext a
    refine Fin.ext ?_
    match a with
    | ⟨0, _⟩ => exact h0
    | ⟨1, _⟩ => show (0 : Nat) = (i 1 : Nat); omega
    | ⟨2, _⟩ => exact h2
    | ⟨3, _⟩ => rfl
    | ⟨4, _⟩ => rfl
  · intro p; rfl

/-- Slice pairs along the second spatial axis: the free coordinates are (w, d), w outside. -/
theorem reduceH (hr : S8x1x160x159x160.ReducesTo [1, 2, 4] S8x159) (y : S8x1x160x159x160.Idx → EReal) (init : EReal)
    (b : Fin 8) (s : Fin 159) :
    Ideal.hostReduceAdd hr y init (ix2 b s) = init + ∑ w : Fin 160, ∑ d : Fin 160, y (ix5 b (0 : Fin 1) d s w) := by
  unfold Ideal.hostReduceAdd
  congr 1
  rw [sum_fibre_eq_sum hr.drop (ix2 b s) (fun p : Fin 160 × Fin 160 => ix5 b (0 : Fin 1) p.2 s p.1)
    (fun i => (⟨(i 4).val, (i 4).isLt⟩, ⟨(i 2).val, (i 2).isLt⟩)) ?_ ?_ ?_ y, Fintype.sum_prod_type]
  · intro p
    funext a
    refine Fin.ext ?_
    match a with
    | ⟨0, _⟩ => exact hr.drop_apply_val_of_eq _ 0 0
    | ⟨1, _⟩ => exact hr.drop_apply_val_of_eq _ 1 3
  · intro i hi
    have h0 : (b : Nat) = i 0 :=
      (congrArg (fun j : S8x159.Idx => (j 0 : Nat)) hi).symm.trans (hr.drop_apply_val_of_eq i 0 0)
    have h3 : (s : Nat) = i 3 :=
      (congrArg (fun j : S8x159.Idx => (j 1 : Nat)) hi).symm.trans (hr.drop_apply_val_of_eq i 1 3)
    have h1 : (i 1 : Nat) < 1 := (i 1).isLt
    funext a
    refine Fin.ext ?_
    match a with
    | ⟨0, _⟩ => exact h0
    | ⟨1, _⟩ => show (0 : Nat) = (i 1 : Nat); omega
    | ⟨2, _⟩ => rfl
    | ⟨3, _⟩ => exact h3
    | ⟨4, _⟩ => rfl
  · intro p; rfl

/-- Slice pairs along the third spatial axis: the free coordinates are (h, d), h outside. -/
theorem reduceW (hr : S8x1x160x160x159.ReducesTo [1, 2, 3] S8x159) (y : S8x1x160x160x159.Idx → EReal) (init : EReal)
    (b : Fin 8) (s : Fin 159) :
    Ideal.hostReduceAdd hr y init (ix2 b s) = init + ∑ h : Fin 160, ∑ d : Fin 160, y (ix5 b (0 : Fin 1) d h s) := by
  unfold Ideal.hostReduceAdd
  congr 1
  rw [sum_fibre_eq_sum hr.drop (ix2 b s) (fun p : Fin 160 × Fin 160 => ix5 b (0 : Fin 1) p.2 p.1 s)
    (fun i => (⟨(i 3).val, (i 3).isLt⟩, ⟨(i 2).val, (i 2).isLt⟩)) ?_ ?_ ?_ y, Fintype.sum_prod_type]
  · intro p
    funext a
    refine Fin.ext ?_
    match a with
    | ⟨0, _⟩ => exact hr.drop_apply_val_of_eq _ 0 0
    | ⟨1, _⟩ => exact hr.drop_apply_val_of_eq _ 1 4
  · intro i hi
    have h0 : (b : Nat) = i 0 :=
      (congrArg (fun j : S8x159.Idx => (j 0 : Nat)) hi).symm.trans (hr.drop_apply_val_of_eq i 0 0)
    have h4 : (s : Nat) = i 4 :=
      (congrArg (fun j : S8x159.Idx => (j 1 : Nat)) hi).symm.trans (hr.drop_apply_val_of_eq i 1 4)
    have h1 : (i 1 : Nat) < 1 := (i 1).isLt
    funext a
    refine Fin.ext ?_
    match a with
    | ⟨0, _⟩ => exact h0
    | ⟨1, _⟩ => show (0 : Nat) = (i 1 : Nat); omega
    | ⟨2, _⟩ => rfl
    | ⟨3, _⟩ => rfl
    | ⟨4, _⟩ => exact h4
  · intro p; rfl

/-! ## The two slices of each difference, at coordinates

The upper slice reads the volume one step further along the axis, the lower slice at the same point. -/

theorem idxD_up (b : Fin 8) (s : Fin 159) (h w : Fin 160) :
    idx_main_call0_v0 (ix5 b (0 : Fin 1) s h w) = ix5 b (0 : Fin 1) (SliceRbf.up s) h w := by
  funext a
  refine Fin.ext ?_
  match a with
  | ⟨0, _⟩ => rfl
  | ⟨1, _⟩ => rfl
  | ⟨2, _⟩ => show 1 + s.val = s.val + 1; omega
  | ⟨3, _⟩ => rfl
  | ⟨4, _⟩ => rfl
theorem idxD_lo (b : Fin 8) (s : Fin 159) (h w : Fin 160) :
    idx_main_call0_v1 (ix5 b (0 : Fin 1) s h w) = ix5 b (0 : Fin 1) (SliceRbf.lo s) h w := by
  funext a
  refine Fin.ext ?_
  match a with
  | ⟨0, _⟩ => rfl
  | ⟨1, _⟩ => rfl
  | ⟨2, _⟩ => rfl
  | ⟨3, _⟩ => rfl
  | ⟨4, _⟩ => rfl
theorem idxH_up (b : Fin 8) (s : Fin 159) (d w : Fin 160) :
    idx_main_call1_v0 (ix5 b (0 : Fin 1) d s w) = ix5 b (0 : Fin 1) d (SliceRbf.up s) w := by
  funext a
  refine Fin.ext ?_
  match a with
  | ⟨0, _⟩ => rfl
  | ⟨1, _⟩ => rfl
  | ⟨2, _⟩ => rfl
  | ⟨3, _⟩ => show 1 + s.val = s.val + 1; omega
  | ⟨4, _⟩ => rfl
theorem idxH_lo (b : Fin 8) (s : Fin 159) (d w : Fin 160) :
    idx_main_call1_v1 (ix5 b (0 : Fin 1) d s w) = ix5 b (0 : Fin 1) d (SliceRbf.lo s) w := by
  funext a
  refine Fin.ext ?_
  match a with
  | ⟨0, _⟩ => rfl
  | ⟨1, _⟩ => rfl
  | ⟨2, _⟩ => rfl
  | ⟨3, _⟩ => rfl
  | ⟨4, _⟩ => rfl
theorem idxW_up (b : Fin 8) (s : Fin 159) (d h : Fin 160) :
    idx_main_call2_v0 (ix5 b (0 : Fin 1) d h s) = ix5 b (0 : Fin 1) d h (SliceRbf.up s) := by
  funext a
  refine Fin.ext ?_
  match a with
  | ⟨0, _⟩ => rfl
  | ⟨1, _⟩ => rfl
  | ⟨2, _⟩ => rfl
  | ⟨3, _⟩ => rfl
  | ⟨4, _⟩ => show 1 + s.val = s.val + 1; omega
theorem idxW_lo (b : Fin 8) (s : Fin 159) (d h : Fin 160) :
    idx_main_call2_v1 (ix5 b (0 : Fin 1) d h s) = ix5 b (0 : Fin 1) d h (SliceRbf.lo s) := by
  funext a
  refine Fin.ext ?_
  match a with
  | ⟨0, _⟩ => rfl
  | ⟨1, _⟩ => rfl
  | ⟨2, _⟩ => rfl
  | ⟨3, _⟩ => rfl
  | ⟨4, _⟩ => rfl

/-! ## The squared distances

The sum starts from the zero word, which is the extended real 0; under the sum each term is the square of the
difference of the two slices. -/

theorem v3_apply (x0 : SliceRbf.Vol) (b : Fin 8) (s : Fin 159) :
    val_main_v3 (F := Ideal) x0 (ix2 b s) = SliceRbf.sqD (SliceRbf.cube x0 b) s := by
  unfold val_main_v3
  simp only [Host.reduceAdd, Ideal.hostReduceAdd_def]
  rw [reduceD, val_main_cst_apply, Ideal.ofBits_def, Ideal.ofBits_zero_f32, zero_add]
  unfold SliceRbf.sqD SliceRbf.cube
  refine Finset.sum_congr rfl fun h _ => Finset.sum_congr rfl fun w _ => ?_
  rw [val_main_v2_apply, val_main_v1_apply, val_main_call0_v0_apply, val_main_call0_v1_apply, idxD_up, idxD_lo,
    Ideal.mulf_def, Ideal.subf_def]

theorem v18_apply (x0 : SliceRbf.Vol) (b : Fin 8) (s : Fin 159) :
    val_main_v18 (F := Ideal) x0 (ix2 b s) = SliceRbf.sqH (SliceRbf.cube x0 b) s := by
  unfold val_main_v18
  simp only [Host.reduceAdd, Ideal.hostReduceAdd_def]
  rw [reduceH, val_main_cst_4_apply, Ideal.ofBits_def, Ideal.ofBits_zero_f32, zero_add]
  unfold SliceRbf.sqH SliceRbf.cube
  refine Finset.sum_congr rfl fun w _ => Finset.sum_congr rfl fun d _ => ?_
  rw [val_main_v17_apply, val_main_v16_apply, val_main_call1_v0_apply, val_main_call1_v1_apply, idxH_up, idxH_lo,
    Ideal.mulf_def, Ideal.subf_def]

theorem v33_apply (x0 : SliceRbf.Vol) (b : Fin 8) (s : Fin 159) :
    val_main_v33 (F := Ideal) x0 (ix2 b s) = SliceRbf.sqW (SliceRbf.cube x0 b) s := by
  unfold val_main_v33
  simp only [Host.reduceAdd, Ideal.hostReduceAdd_def]
  rw [reduceW, val_main_cst_8_apply, Ideal.ofBits_def, Ideal.ofBits_zero_f32, zero_add]
  unfold SliceRbf.sqW SliceRbf.cube
  refine Finset.sum_congr rfl fun h _ => Finset.sum_congr rfl fun d _ => ?_
  rw [val_main_v32_apply, val_main_v31_apply, val_main_call2_v0_apply, val_main_call2_v1_apply, idxW_up, idxW_lo,
    Ideal.mulf_def, Ideal.subf_def]

/-! ## The three widths

Each width is one entry of exp(log_sigma), cut out as a vector of one entry and recast as a scalar: both have one
row-major position, so the scalar is that entry. -/

theorem scalar_of_single (hc : S1.ShapeCasts S_) (y : S1.Idx → EReal) (i : S_.Idx) :
    shapeCast S_ y hc i = y (ix1 (0 : Fin 1)) := by
  refine shapeCast_apply y hc i (ix1 (0 : Fin 1)) ?_
  have h0 : S_.numel = 1 := Shape.numel_eq_one (fun a => a.elim0)
  have hlt : (S_.rowMajor i).val < 1 := lt_of_lt_of_eq (S_.rowMajor i).isLt h0
  rw [Shape.rowMajor_val_one]
  show (0 : Nat) = _
  omega

theorem idx_v5 : idx_main_v5 (ix1 (0 : Fin 1)) = ix1 (0 : Fin 3) := by
  funext a
  refine Fin.ext ?_
  match a with
  | ⟨0, _⟩ => rfl
theorem idx_v20 : idx_main_v20 (ix1 (0 : Fin 1)) = ix1 (1 : Fin 3) := by
  funext a
  refine Fin.ext ?_
  match a with
  | ⟨0, _⟩ => rfl
theorem idx_v35 : idx_main_v35 (ix1 (0 : Fin 1)) = ix1 (2 : Fin 3) := by
  funext a
  refine Fin.ext ?_
  match a with
  | ⟨0, _⟩ => rfl

theorem v6_apply (x1 : (⟨S3, .f32⟩ : BufTy).Contents (Elt Ideal)) (i : S_.Idx) :
    val_main_v6 (F := Ideal) x1 i = SliceRbf.widths x1 0 := by
  unfold val_main_v6
  rw [scalar_of_single, val_main_v5_apply, val_main_v0_apply, Ideal.hostUnary_exp_def, idx_v5]
  rfl
theorem v21_apply (x1 : (⟨S3, .f32⟩ : BufTy).Contents (Elt Ideal)) (i : S_.Idx) :
    val_main_v21 (F := Ideal) x1 i = SliceRbf.widths x1 1 := by
  unfold val_main_v21
  rw [scalar_of_single, val_main_v20_apply, val_main_v0_apply, Ideal.hostUnary_exp_def, idx_v20]
  rfl
theorem v36_apply (x1 : (⟨S3, .f32⟩ : BufTy).Contents (Elt Ideal)) (i : S_.Idx) :
    val_main_v36 (F := Ideal) x1 i = SliceRbf.widths x1 2 := by
  unfold val_main_v36
  rw [scalar_of_single, val_main_v35_apply, val_main_v0_apply, Ideal.hostUnary_exp_def, idx_v35]
  rfl

/-! ## The radial kernel of one slice pair, per axis

Minus the squared distance, over twice the square of the axis's width, exponentiated. -/

theorem v11_at (x0 : SliceRbf.Vol) (x1 : (⟨S3, .f32⟩ : BufTy).Contents (Elt Ideal)) (b : Fin 8) (s : Fin 159) :
    val_main_v11 (F := Ideal) x0 x1 (ix2 b s)
      = Ideal.exp (Ideal.div (-(SliceRbf.sqAx (SliceRbf.cube x0 b) 0 s))
          (SliceRbf.twoW * (SliceRbf.widths x1 0 * SliceRbf.widths x1 0))) := by
  rw [val_main_v11_apply, val_main_v10_apply, val_main_v4_apply, v3_apply, val_main_v9_apply, val_main_v8_apply,
    val_main_cst_0_apply, val_main_v7_apply, v6_apply, SliceRbf.sqAx_zero]
  simp only [Ideal.hostUnary_exp_def, Ideal.hostDivf_def, Ideal.hostNegf_def, Ideal.negf_def, Ideal.mulf_def,
    Ideal.ofBits_def]

theorem v26_at (x0 : SliceRbf.Vol) (x1 : (⟨S3, .f32⟩ : BufTy).Contents (Elt Ideal)) (b : Fin 8) (s : Fin 159) :
    val_main_v26 (F := Ideal) x0 x1 (ix2 b s)
      = Ideal.exp (Ideal.div (-(SliceRbf.sqAx (SliceRbf.cube x0 b) 1 s))
          (SliceRbf.twoW * (SliceRbf.widths x1 1 * SliceRbf.widths x1 1))) := by
  rw [val_main_v26_apply, val_main_v25_apply, val_main_v19_apply, v18_apply, val_main_v24_apply, val_main_v23_apply,
    val_main_cst_5_apply, val_main_v22_apply, v21_apply, SliceRbf.sqAx_one]
  simp only [Ideal.hostUnary_exp_def, Ideal.hostDivf_def, Ideal.hostNegf_def, Ideal.negf_def, Ideal.mulf_def,
    Ideal.ofBits_def]

theorem v41_at (x0 : SliceRbf.Vol) (x1 : (⟨S3, .f32⟩ : BufTy).Contents (Elt Ideal)) (b : Fin 8) (s : Fin 159) :
    val_main_v41 (F := Ideal) x0 x1 (ix2 b s)
      = Ideal.exp (Ideal.div (-(SliceRbf.sqAx (SliceRbf.cube x0 b) 2 s))
          (SliceRbf.twoW * (SliceRbf.widths x1 2 * SliceRbf.widths x1 2))) := by
  rw [val_main_v41_apply, val_main_v40_apply, val_main_v34_apply, v33_apply, val_main_v39_apply, val_main_v38_apply,
    val_main_cst_9_apply, val_main_v37_apply, v36_apply, SliceRbf.sqAx_two]
  simp only [Ideal.hostUnary_exp_def, Ideal.hostDivf_def, Ideal.hostNegf_def, Ideal.negf_def, Ideal.mulf_def,
    Ideal.ofBits_def]

/-! ## One axis's share

The kernels of the 8 × 159 slice pairs added from the zero word, batch outside, divided by the count and negated. -/

theorem term0 (x0 : SliceRbf.Vol) (x1 : (⟨S3, .f32⟩ : BufTy).Contents (Elt Ideal)) (i : S_.Idx) :
    val_main_v14 (F := Ideal) x0 x1 i = SliceRbf.axisTerm x0 (SliceRbf.widths x1) 0 := by
  rw [val_main_v14_apply, val_main_v13_apply, val_main_v12_apply, val_main_cst_1_apply, val_main_cst_2_apply,
    sum_idx2]
  simp only [v11_at, Ideal.hostNegf_def, Ideal.negf_def, Ideal.hostDivf_def, Ideal.ofBits_def]
  unfold SliceRbf.axisTerm
  rfl

theorem term1 (x0 : SliceRbf.Vol) (x1 : (⟨S3, .f32⟩ : BufTy).Contents (Elt Ideal)) (i : S_.Idx) :
    val_main_v29 (F := Ideal) x0 x1 i = SliceRbf.axisTerm x0 (SliceRbf.widths x1) 1 := by
  rw [val_main_v29_apply, val_main_v28_apply, val_main_v27_apply, val_main_cst_6_apply, val_main_cst_7_apply,
    sum_idx2]
  simp only [v26_at, Ideal.hostNegf_def, Ideal.negf_def, Ideal.hostDivf_def, Ideal.ofBits_def]
  unfold SliceRbf.axisTerm
  rfl

theorem term2 (x0 : SliceRbf.Vol) (x1 : (⟨S3, .f32⟩ : BufTy).Contents (Elt Ideal)) (i : S_.Idx) :
    val_main_v44 (F := Ideal) x0 x1 i = SliceRbf.axisTerm x0 (SliceRbf.widths x1) 2 := by
  rw [val_main_v44_apply, val_main_v43_apply, val_main_v42_apply, val_main_cst_10_apply, val_main_cst_11_apply,
    sum_idx2]
  simp only [v41_at, Ideal.hostNegf_def, Ideal.negf_def, Ideal.hostDivf_def, Ideal.ofBits_def]
  unfold SliceRbf.axisTerm
  rfl

/-! ## The result

The three shares added from the zero word, first to last, and the total divided by the word of 3. -/

theorem result_eq (x0 : (⟨S8x1x160x160x160, .f32⟩ : BufTy).Contents (Elt Ideal))
    (x1 : (⟨S3, .f32⟩ : BufTy).Contents (Elt Ideal)) :
    Cert.ReferenceIdeal.Read.val_main_v46 (F := Ideal) x0 x1 = fun _ => SliceRbf.result x0 (SliceRbf.widths x1) := by
  funext i
  rw [val_main_v46_apply, val_main_v45_apply, val_main_v30_apply, val_main_v15_apply, val_main_cst_3_apply,
    val_main_cst_12_apply, term0, term1, term2]
  simp only [Ideal.hostDivf_def, Ideal.addf_def, Ideal.ofBits_def]
  unfold SliceRbf.result
  rfl

end Cert.ReferenceIdeal.RefValue

end
-- ==== Proof.TailValue.lean ====
/-
  The value of the tiled program's closing lines on the table of squared distances.

  The closing lines drop the unused last column of the table, negate, divide row a by (2 * sigma_a) * sigma_a with
  sigma = exp(log-widths), exponentiate, add over batches and slice pairs from the zero word, divide by the count,
  negate, add the three shares from the zero word, and divide by 3.  Read at an index, each layout operation names
  one entry of its operand; the sum over two of three axes runs, at axis a, over the fibre of a under the map
  forgetting batch and slice pair, which the pairs (b, s) parametrise; the sum over the one axis of the three shares
  is the sum of three terms.  Two laws of the extended reals then meet the specification: multiplication is
  associative, so (2 * sigma) * sigma = 2 * (sigma * sigma), and addition is associative, so adding the three shares
  together and then to the zero word is adding them to the zero word one after the other.  Nothing is assumed finite.
-/
import proofs.«102135_j60833916780584_2_alg».proof.Proof.Spec
import proofs.«102135_j60833916780584_2_alg».proof.Proof.TailDef
import proofs.«102135_j60833916780584_2_alg».proof.Proof.RefValue
import Idealize.ShloMosaic.Lib.ValueIdx
import Idealize.ShloMosaic.Lib.Pipeline.Value
import Idealize.ShloMosaic.Lib.IdealHost
import Idealize.ShloMosaic.PureOps.Ideal.Laws

noncomputable section

open Idealize.ShloMosaic Idealize.ShloMosaic.ValueIdx

namespace Cert.KernelIdeal.Tail

open Cert.KernelIdeal Cert.KernelIdeal.Gen

/-! ## The closing lines in three stages -/

/-- The three denominators (2 * sigma_a) * sigma_a as a vector. -/
def denom (ls : (⟨S3, .f32⟩ : BufTy).Contents (Elt Ideal)) : FVec Ideal S3 .f32 :=
  mulf (mulf (broadcastInDim S3 ![] bcast_S_S3 (constant (F := Ideal) S_ .f32 0x40000000#32))
      (Host.exp (F := Ideal) ls)) (Host.exp (F := Ideal) ls)

/-- The radial kernels of all slice pairs of all batches and axes. -/
def kernels (T : (⟨S8x3x160, .f32⟩ : BufTy).Contents (Elt Ideal)) (ls : (⟨S3, .f32⟩ : BufTy).Contents (Elt Ideal)) :
    FVec Ideal S8x3x159 .f32 :=
  Host.exp (F := Ideal)
    (Host.divf (F := Ideal)
      (Host.negf (F := Ideal) (extractStridedSlice S8x3x159 ![0, 0, 0] T slices_S8x3x160_S8x3x159_0_0_0))
      (broadcastInDim S8x3x159 ![0, 1, 2] bcast_S1x3x1_S8x3x159_0_1_2
        (shapeCast S1x3x1 (denom ls) shapeCasts_S3_S1x3x1)))

/-- The three shares: minus the mean of each axis's kernels. -/
def shares (T : (⟨S8x3x160, .f32⟩ : BufTy).Contents (Elt Ideal)) (ls : (⟨S3, .f32⟩ : BufTy).Contents (Elt Ideal)) :
    FVec Ideal S3 .f32 :=
  Host.negf (F := Ideal)
    (Host.divf (F := Ideal)
      (Host.reduceAdd (F := Ideal) (kernels T ls) (constant (F := Ideal) S_ .f32 0x00000000#32)
        reducesTo_S8x3x159_S3_d0_2 h_S_)
      (broadcastInDim S3 ![] bcast_S_S3 (constant (F := Ideal) S_ .f32 0x449F0000#32)))

theorem tail_eq (T : (⟨S8x3x160, .f32⟩ : BufTy).Contents (Elt Ideal)) (ls : (⟨S3, .f32⟩ : BufTy).Contents (Elt Ideal)) :
    tail T ls = Host.divf (F := Ideal)
      (Host.reduceAdd (F := Ideal) (shares T ls) (constant (F := Ideal) S_ .f32 0x00000000#32) reducesTo_S3_S_d0 h_S_)
      (constant (F := Ideal) S_ .f32 0x40400000#32) := rfl

/-! ## The two sums -/

/-- The sum over batches and slice pairs, read at axis a: the fibre of a is the 8 × 159 pairs (b, s). -/
theorem sum_pairs (hr : S8x3x159.ReducesTo [0, 2] S3) (y : S8x3x159.Idx → EReal) (init : EReal) (a : Fin 3) :
    Ideal.hostReduceAdd hr y init (ix1 a) = init + ∑ b : Fin 8, ∑ s : Fin 159, y (ix3 b a s) := by
  unfold Ideal.hostReduceAdd
  congr 1
  rw [Cert.ReferenceIdeal.RefValue.sum_fibre_eq_sum hr.drop (ix1 a) (fun p : Fin 8 × Fin 159 => ix3 p.1 a p.2)
    (fun i => (⟨(i 0).val, (i 0).isLt⟩, ⟨(i 2).val, (i 2).isLt⟩)) ?_ ?_ ?_ y, Fintype.sum_prod_type]
  · intro p
    funext d
    refine Fin.ext ?_
    match d with
    | ⟨0, _⟩ => exact hr.drop_apply_val_of_eq _ 0 1
  · intro i hi
    have h1 : (a : Nat) = i 1 :=
      (congrArg (fun j : S3.Idx => (j 0 : Nat)) hi).symm.trans (hr.drop_apply_val_of_eq i 0 1)
    funext d
    refine Fin.ext ?_
    match d with
    | ⟨0, _⟩ => rfl
    | ⟨1, _⟩ => exact h1
    | ⟨2, _⟩ => rfl
  · intro p; rfl

/-- A sum over the indices of a vector of three is the sum of its three entries. -/
theorem sum_three (y : S3.Idx → EReal) :
    ∑ i : S3.Idx, y i = y (ix1 (0 : Fin 3)) + y (ix1 (1 : Fin 3)) + y (ix1 (2 : Fin 3)) := by
  refine Eq.trans ?_ (Fin.sum_univ_three fun a : Fin 3 => y (ix1 a))
  refine Fintype.sum_equiv
    ⟨fun i => (⟨(i 0).val, (i 0).isLt⟩ : Fin 3), fun a => ix1 a, fun i => ?_, fun a => rfl⟩ _ _ fun i => ?_
  · funext d
    match d with
    | ⟨0, _⟩ => rfl
  · refine congrArg y ?_
    funext d
    match d with
    | ⟨0, _⟩ => rfl

/-- The sum of the three shares into a scalar, from its initial value. -/
theorem sum_shares (hr : S3.ReducesTo [0] S_) (y : S3.Idx → EReal) (init : EReal) (j : S_.Idx) :
    Ideal.hostReduceAdd hr y init j = init + (y (ix1 (0 : Fin 3)) + y (ix1 (1 : Fin 3)) + y (ix1 (2 : Fin 3))) := by
  rw [Ideal.hostReduceAdd_total hr (fun b => b.elim0) y init j, sum_three]

/-! ## The layout operations at an index -/

/-- The denominator of axis a: twice the width times the width. -/
theorem denom_apply (ls : (⟨S3, .f32⟩ : BufTy).Contents (Elt Ideal)) (a : Fin 3) :
    denom ls (ix1 a) = SliceRbf.twoW * SliceRbf.widths ls a * SliceRbf.widths ls a := by
  unfold denom
  rw [mulf_apply, mulf_apply, broadcastInDim_scalar_apply, constant_apply]
  rfl

/-- The vector of three recast as [1, 3, 1] and copied along batches and slice pairs reads, at (b, a, s), its
    entry a. -/
theorem spread_apply (v : S3.Idx → EReal) (b : Fin 8) (a : Fin 3) (s : Fin 159) :
    broadcastInDim S8x3x159 ![0, 1, 2] bcast_S1x3x1_S8x3x159_0_1_2 (shapeCast S1x3x1 v shapeCasts_S3_S1x3x1)
      (ix3 b a s) = v (ix1 a) := by
  refine (broadcastInDim_apply ![0, 1, 2] bcast_S1x3x1_S8x3x159_0_1_2 _ (ix3 b a s)
    (ix3 (0 : Fin 1) a (0 : Fin 1)) ?_).trans ?_
  · intro d
    match d with
    | ⟨0, _⟩ => rfl
    | ⟨1, _⟩ => rfl
    | ⟨2, _⟩ => rfl
  · refine shapeCast_apply v shapeCasts_S3_S1x3x1 (ix3 (0 : Fin 1) a (0 : Fin 1)) (ix1 a) ?_
    rw [Shape.rowMajor_val_one, Shape.rowMajor_val_three]
    show a.val = (0 * 3 + a.val) * 1 + 0
    omega

/-- The table without its last column reads, at (b, a, s), the table at (b, a, s). -/
theorem slice_apply (T : S8x3x160.Idx → EReal) (b : Fin 8) (a : Fin 3) (s : Fin 159) :
    extractStridedSlice S8x3x159 ![0, 0, 0] T slices_S8x3x160_S8x3x159_0_0_0 (ix3 b a s)
      = T (ix3 b a (SliceRbf.lo s)) := by
  refine extractStridedSlice_apply ![0, 0, 0] T slices_S8x3x160_S8x3x159_0_0_0 (ix3 b a s)
    (ix3 b a (SliceRbf.lo s)) ?_
  intro d
  match d with
  | ⟨0, _⟩ => show b.val = 0 + b.val; omega
  | ⟨1, _⟩ => show a.val = 0 + a.val; omega
  | ⟨2, _⟩ => show s.val = 0 + s.val; omega

/-- The table of a volume at (b, a, s), s below 159, is the squared distance of slice pair s on axis a of batch b. -/
theorem table_apply (x : SliceRbf.Vol) (b : Fin 8) (a : Fin 3) (s : Fin 159) :
    SliceRbf.table x (ix3 b a (SliceRbf.lo s)) = SliceRbf.sqAx (SliceRbf.cube x b) a s :=
  SliceRbf.row_of_lt (SliceRbf.cube x b) a s

/-! ## The kernels, the shares, the result -/

/-- One slice pair's kernel. -/
theorem kernels_apply (T : (⟨S8x3x160, .f32⟩ : BufTy).Contents (Elt Ideal)) (ls : (⟨S3, .f32⟩ : BufTy).Contents (Elt Ideal))
    (b : Fin 8) (a : Fin 3) (s : Fin 159) :
    kernels T ls (ix3 b a s)
      = Ideal.exp (Ideal.div (-(T (ix3 b a (SliceRbf.lo s))))
          (SliceRbf.twoW * (SliceRbf.widths ls a * SliceRbf.widths ls a))) := by
  unfold kernels
  show FloatOps.hostUnary .exp (FloatOps.hostDivf (FloatOps.hostNegf (extractStridedSlice S8x3x159 ![0, 0, 0] T
      slices_S8x3x160_S8x3x159_0_0_0 (ix3 b a s)))
    (broadcastInDim S8x3x159 ![0, 1, 2] bcast_S1x3x1_S8x3x159_0_1_2
      (shapeCast S1x3x1 (denom ls) shapeCasts_S3_S1x3x1) (ix3 b a s))) = _
  rw [slice_apply, spread_apply, denom_apply, mul_assoc, Ideal.hostUnary_exp_def, Ideal.hostDivf_def,
    Ideal.hostNegf_def, Ideal.negf_def]

/-- One axis's share. -/
theorem shares_apply (x : SliceRbf.Vol) (ls : (⟨S3, .f32⟩ : BufTy).Contents (Elt Ideal)) (a : Fin 3) :
    shares (SliceRbf.table x) ls (ix1 a) = SliceRbf.axisTerm x (SliceRbf.widths ls) a := by
  unfold shares
  show FloatOps.hostNegf (FloatOps.hostDivf
    (Ideal.hostReduceAdd reducesTo_S8x3x159_S3_d0_2 (kernels (SliceRbf.table x) ls)
      (constant (F := Ideal) S_ .f32 0x00000000#32 (Shape.Idx.first h_S_)) (ix1 a))
    (broadcastInDim S3 ![] bcast_S_S3 (constant (F := Ideal) S_ .f32 0x449F0000#32) (ix1 a))) = _
  rw [sum_pairs, broadcastInDim_scalar_apply, constant_apply, constant_apply, Ideal.hostDivf_def, Ideal.hostNegf_def,
    Ideal.negf_def]
  unfold SliceRbf.axisTerm
  simp only [kernels_apply, table_apply]

theorem tail_table (x : SliceRbf.Vol) (ls : (⟨S3, .f32⟩ : BufTy).Contents (Elt Ideal)) :
    tail (SliceRbf.table x) ls = fun _ => SliceRbf.result x (SliceRbf.widths ls) := by
  funext i
  rw [tail_eq]
  show FloatOps.hostDivf
    (Ideal.hostReduceAdd reducesTo_S3_S_d0 (shares (SliceRbf.table x) ls)
      (constant (F := Ideal) S_ .f32 0x00000000#32 (Shape.Idx.first h_S_)) i)
    (constant (F := Ideal) S_ .f32 0x40400000#32 i) = _
  rw [sum_shares, shares_apply, shares_apply, shares_apply, constant_apply, constant_apply, Ideal.hostDivf_def,
    ← add_assoc, ← add_assoc]
  rfl

end Cert.KernelIdeal.Tail

end
-- ==== Proof.lean ====
/-
  The certificate of one kernel against its reference, at the exact (extended-real) reading of floats.

  Both programs take a volume x[b, 0, d, h, w] (8 batches, 160 points on each of three spatial axes) and three
  log-widths, and return one number: for each spatial axis, minus the mean over batches and pairs of adjacent
  slices of exp(-q / (2 sigma^2)), q the squared distance between the two slices, sigma = exp(log-width); the
  three axes added and divided by 3 (Proof/Spec.lean, `SliceRbf.result`).

  The tiled program streams one batch per grid point: thirty slabs of 17 (or 16) slices give the 159 squared
  distances of each axis, stored as the batch's three rows of a table [8, 3, 160] (Proof/LibAdjacentSquares.lean: the
  sums of squared adjacent differences index by index; Proof/Pieces.lean: each store is a block of the three rows;
  Proof/Block.lean: the stores together are the three rows; Proof/Final.lean: the eight blocks are the table, and the
  closing lines run on it); the closing lines (Proof/TailDef.lean) applied to that table are the specification's
  result (Proof/TailValue.lean).  The plain program subtracts shifted copies of the whole volume and adds the squares
  over three axes at once; its result is the same specification (Proof/RefValue.lean).  The two sides differ only
  in the grouping of finite sums and in (2 sigma) sigma against 2 (sigma sigma): laws of the commutative monoids
  of the extended reals under + and *, so nothing is assumed finite and the precondition is never opened.

  The three frame claims are the generated frames (the plain program's is its generated run with the result
  dropped); the idealization rewrote no operation, so `preserves` is `True`.
-/
import proofs.«102135_j60833916780584_2_alg».proof.Defs
import proofs.«102135_j60833916780584_2_alg».proof.Proof.Gen.Kernel
import proofs.«102135_j60833916780584_2_alg».proof.Proof.Gen.Kernel.Skeleton
import proofs.«102135_j60833916780584_2_alg».proof.Proof.Gen.Kernel.Launch
import proofs.«102135_j60833916780584_2_alg».proof.Proof.Gen.Kernel.Points
import proofs.«102135_j60833916780584_2_alg».proof.Proof.Gen.Kernel.Frame
import proofs.«102135_j60833916780584_2_alg».proof.Proof.Gen.KernelIdeal
import proofs.«102135_j60833916780584_2_alg».proof.Proof.Gen.KernelIdeal.Skeleton
import proofs.«102135_j60833916780584_2_alg».proof.Proof.Gen.KernelIdeal.Launch
import proofs.«102135_j60833916780584_2_alg».proof.Proof.Gen.KernelIdeal.Points
import proofs.«102135_j60833916780584_2_alg».proof.Proof.Gen.KernelIdeal.Frame
import proofs.«102135_j60833916780584_2_alg».proof.Proof.Gen.ReferenceIdeal
import proofs.«102135_j60833916780584_2_alg».proof.Proof.Gen.ReferenceIdeal.Run
import proofs.«102135_j60833916780584_2_alg».proof.Proof.Gen.ReferenceIdeal.Read
import proofs.«102135_j60833916780584_2_alg».proof.Proof.Gen.Pre_finite_inputs
import proofs.«102135_j60833916780584_2_alg».proof.Proof.Final
import proofs.«102135_j60833916780584_2_alg».proof.Proof.TailValue
import proofs.«102135_j60833916780584_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments: the generated frame. -/
theorem frame_kernel : Cert.frame_Kernel := fun m ρ _ => Cert.Kernel.Gen.frame m ρ

/-- So does its exact reading. -/
theorem frame_kernelIdeal : Cert.frame_KernelIdeal := fun m ρ _ => Cert.KernelIdeal.Gen.frame m ρ

/-- The plain program's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the volume and the log-widths both programs end with the specification's result. -/
theorem algebraic : Cert.algebraic_KernelIdeal_ReferenceIdeal := by
  intro m ρ m' ρ' _ hagree
  refine ⟨fun c _ => SliceRbf.result (m ((c.tc : Thread Cert.KernelIdeal.nD Cert.KernelIdeal.τ).loc Cert.KernelIdeal.main_arg0))
      (SliceRbf.widths (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.Tail.tail_table _ _), (h c).2⟩)
      (Cert.KernelIdeal.Final.kernel_run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, Cert.ReferenceIdeal.RefValue.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
